-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S81x1024 : S_.BroadcastsInDim S81x1024 (![] : Fin 0 → Fin S81x1024.rank)
  reducesTo_S81x1024_S_d0_1 : S81x1024.ReducesTo [0, 1] S_
  bcast_S_S81 : S_.BroadcastsInDim S81 (![] : Fin 0 → Fin S81.rank)
  reducesTo_S81_S_d0 : S81.ReducesTo [0] S_
  bcast_S_S320x1024 : S_.BroadcastsInDim S320x1024 (![] : Fin 0 → Fin S320x1024.rank)
  reducesTo_S320x1024_S_d0_1 : S320x1024.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x1024 1) : IVec S_ 1 :=
  let main_c_5 : IVec S_ 1 := constantI S_ 1 1#1
  let main_v17 : IVec S_ 1 := (fun x v => Host.reduce IntOp.andi x v reducesTo_S320x1024_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S20000x1024 .f32) (main_arg1 : FVec F S81x1024 .f32) (main_arg2 : FVec F S81 .f32) (main_arg3 : FVec F S320x1024 .f32) (main_arg4 : FVec F S320 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S81x1024 .f32 := Host.absf main_arg1
  let main_cst_0 : FVec F S_ .f32 := constant S_ .f32 0x7F800000#32
  let main_v5 : FVec F S81x1024 .f32 := broadcastInDim S81x1024 ![] bcast_S_S81x1024 main_cst_0
  let main_v6 : IVec S81x1024 1 := cmpf .olt main_v4 main_v5
  let main_c_1 : IVec S_ 1 := constantI S_ 1 1#1
  let main_v7 : IVec S_ 1 := (fun x v => Host.reduce IntOp.andi x v reducesTo_S81x1024_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S320x1024 .f32 := Host.absf main_arg3
  let main_cst_4 : FVec F S_ .f32 := constant S_ .f32 0x7F800000#32
  let main_v15 : FVec F S320x1024 .f32 := broadcastInDim S320x1024 ![] bcast_S_S320x1024 main_cst_4
  let main_v16 : IVec S320x1024 1 := cmpf .olt main_v14 main_v15
  fn_part1 (F := F) main_arg4 main_v13 main_v16
-- ==== Kernel.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1x81 : Shape := ⟨2, ![1, 81]⟩
abbrev S1x320 : Shape := ⟨2, ![1, 320]⟩
abbrev S81x20000 : Shape := ⟨2, ![81, 20000]⟩
abbrev S320x20000 : Shape := ⟨2, ![320, 20000]⟩
abbrev S20000x81 : Shape := ⟨2, ![20000, 81]⟩
abbrev S20000x320 : Shape := ⟨2, ![20000, 320]⟩
abbrev S1280x1024 : Shape := ⟨2, ![1280, 1024]⟩
abbrev S81x2560 : Shape := ⟨2, ![81, 2560]⟩
abbrev S320x2560 : Shape := ⟨2, ![320, 2560]⟩
abbrev S81x1 : Shape := ⟨2, ![81, 1]⟩
abbrev S320x1 : Shape := ⟨2, ![320, 1]⟩
abbrev S81x1280 : Shape := ⟨2, ![81, 1280]⟩
abbrev S320x1280 : Shape := ⟨2, ![320, 1280]⟩

abbrev nBuf : Space → Nat
  | .hbm => 11
  | .vmem => 12
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1x81, .f32⟩
  | .hbm, ⟨6, _⟩ => ⟨S1x320, .f32⟩
  | .hbm, ⟨7, _⟩ => ⟨S81x20000, .f32⟩
  | .hbm, ⟨8, _⟩ => ⟨S320x20000, .f32⟩
  | .hbm, ⟨9, _⟩ => ⟨S20000x81, .f32⟩
  | .hbm, ⟨10, _⟩ => ⟨S20000x320, .f32⟩
  | .local _ .vmem, ⟨0, _⟩ => ⟨S1280x1024, .f32⟩
  | .local _ .vmem, ⟨1, _⟩ => ⟨S1280x1024, .f32⟩
  | .local _ .vmem, ⟨2, _⟩ => ⟨S1280x1024, .f32⟩
  | .local _ .vmem, ⟨3, _⟩ => ⟨S1280x1024, .f32⟩
  | .local _ .vmem, ⟨4, _⟩ => ⟨S81x1024, .f32⟩
  | .local _ .vmem, ⟨5, _⟩ => ⟨S1x81, .f32⟩
  | .local _ .vmem, ⟨6, _⟩ => ⟨S320x1024, .f32⟩
  | .local _ .vmem, ⟨7, _⟩ => ⟨S1x320, .f32⟩
  | .local _ .vmem, ⟨8, _⟩ => ⟨S81x2560, .f32⟩
  | .local _ .vmem, ⟨9, _⟩ => ⟨S81x2560, .f32⟩
  | .local _ .vmem, ⟨10, _⟩ => ⟨S320x2560, .f32⟩
  | .local _ .vmem, ⟨11, _⟩ => ⟨S320x2560, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S81x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x81 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S81x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S81_S1x81 : S81.ShapeCasts S1x81
  shapeCasts_S320_S1x320 : S320.ShapeCasts S1x320
  transposes_S81x20000_S20000x81_1_0 : S81x20000.Transposes [1, 0] S20000x81
  transposes_S320x20000_S20000x320_1_0 : S320x20000.Transposes [1, 0] S20000x320
  inb_S1280x1024_S1280x1024_0_0 : ∀ a, (![0, 0] : Fin 2 → Nat) a + S1280x1024.size a ≤ S1280x1024.size a
  h_S1280x1024 : 0 < S1280x1024.numel
  inb_S1x81_S1x81_0_0 : ∀ a, (![0, 0] : Fin 2 → Nat) a + S1x81.size a ≤ S1x81.size a
  h_S1x81 : 0 < S1x81.numel
  shapeCasts_S1x81_S1x81 : S1x81.ShapeCasts S1x81
  transposes_S1x81_p1_0_S81x1 : S1x81.Transposes [1, 0] S81x1
  inb_S1x320_S1x320_0_0 : ∀ a, (![0, 0] : Fin 2 → Nat) a + S1x320.size a ≤ S1x320.size a
  h_S1x320 : 0 < S1x320.numel
  shapeCasts_S1x320_S1x320 : S1x320.ShapeCasts S1x320
  transposes_S1x320_p1_0_S320x1 : S1x320.Transposes [1, 0] S320x1
  inb_S81x1024_S81x1024_0_0 : ∀ a, (![0, 0] : Fin 2 → Nat) a + S81x1024.size a ≤ S81x1024.size a
  h_S81x1024 : 0 < S81x1024.numel
  broadcasts_S81x1_S81x1280 : S81x1.Broadcasts S81x1280
  inb_S81x2560_S81x1280_0_0 : ∀ a, (![0, 0] : Fin 2 → Nat) a + S81x1280.size a ≤ S81x2560.size a
  h_S81x1280 : 0 < S81x1280.numel
  inb_S320x1024_S320x1024_0_0 : ∀ a, (![0, 0] : Fin 2 → Nat) a + S320x1024.size a ≤ S320x1024.size a
  h_S320x1024 : 0 < S320x1024.numel
  broadcasts_S320x1_S320x1280 : S320x1.Broadcasts S320x1280
  inb_S320x2560_S320x1280_0_0 : ∀ a, (![0, 0] : Fin 2 → Nat) a + S320x1280.size a ≤ S320x2560.size a
  h_S320x1280 : 0 < S320x1280.numel
  inb_S81x2560_S81x1280_0_1280 : ∀ a, (![0, 1280] : Fin 2 → Nat) a + S81x1280.size a ≤ S81x2560.size a
  inb_S320x2560_S320x1280_0_1280 : ∀ a, (![0, 1280] : Fin 2 → Nat) a + S320x1280.size a ≤ S320x2560.size a
  dot_S81x1024_S1280x1024_S81x1280_1_1_0_0_n_n_wf : DotDims.WF S81x1024 S1280x1024 S81x1280 [1] [1] [0] [0] [] []
  dot_S320x1024_S1280x1024_S320x1280_1_1_0_0_n_n_wf : DotDims.WF S320x1024 S1280x1024 S320x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1280x1024.size a < S20000x1024.size a
  hwx0_0 : ∀ i : grid0.Coords, EltTy.bits .f32 = 32 ∨ (Rect.unit (s := S20000x1024) (fun a => cc0_transform_0 i a * S1280x1024.size a) (fun a => (Pipeline.Clip.of (cc0_transform_0 i a) (S1280x1024.size a) (S20000x1024.size a)).extent (S1280x1024.size a)) fun a => Pipeline.Clip.inb (Pipeline.Clip.ok_of (hstart0_0 i a))).WholeWords (EltTy.packing .f32)
  hwxs0_0 : ∀ i : grid0.Coords, EltTy.bits .f32 = 32 ∨ (Rect.unit (s := S1280x1024) (fun _ => 0) (fun a => (Pipeline.Clip.of (cc0_transform_0 i a) (S1280x1024.size a) (S20000x1024.size a)).extent (S1280x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x1024.size a < S20000x1024.size a
  hwx0_1 : ∀ i : grid0.Coords, EltTy.bits .f32 = 32 ∨ (Rect.unit (s := S20000x1024) (fun a => cc0_transform_1 i a * S1280x1024.size a) (fun a => (Pipeline.Clip.of (cc0_transform_1 i a) (S1280x1024.size a) (S20000x1024.size a)).extent (S1280x1024.size a)) fun a => Pipeline.Clip.inb (Pipeline.Clip.ok_of (hstart0_1 i a))).WholeWords (EltTy.packing .f32)
  hwxs0_1 : ∀ i : grid0.Coords, EltTy.bits .f32 = 32 ∨ (Rect.unit (s := S1280x1024) (fun _ => 0) (fun a => (Pipeline.Clip.of (cc0_transform_1 i a) (S1280x1024.size a) (S20000x1024.size a)).extent (S1280x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S81x1024.size a ≤ S81x1024.size a
  hwx0_2 : ∀ i : grid0.Coords, EltTy.bits .f32 = 32 ∨ (Rect.block (s := S81x1024) S81x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x81.size a ≤ S1x81.size a
  hwx0_3 : ∀ i : grid0.Coords, EltTy.bits .f32 = 32 ∨ (Rect.block (s := S1x81) S1x81.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x1024.size a ≤ S320x1024.size a
  hwx0_4 : ∀ i : grid0.Coords, EltTy.bits .f32 = 32 ∨ (Rect.block (s := S320x1024) S320x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x320.size a ≤ S1x320.size a
  hwx0_5 : ∀ i : grid0.Coords, EltTy.bits .f32 = 32 ∨ (Rect.block (s := S1x320) S1x320.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S81x2560.size a < S81x20000.size a
  hwx0_6 : ∀ i : grid0.Coords, EltTy.bits .f32 = 32 ∨ (Rect.unit (s := S81x20000) (fun a => cc0_transform_6 i a * S81x2560.size a) (fun a => (Pipeline.Clip.of (cc0_transform_6 i a) (S81x2560.size a) (S81x20000.size a)).extent (S81x2560.size a)) fun a => Pipeline.Clip.inb (Pipeline.Clip.ok_of (hstart0_6 i a))).WholeWords (EltTy.packing .f32)
  hwxs0_6 : ∀ i : grid0.Coords, EltTy.bits .f32 = 32 ∨ (Rect.unit (s := S81x2560) (fun _ => 0) (fun a => (Pipeline.Clip.of (cc0_transform_6 i a) (S81x2560.size a) (S81x20000.size a)).extent (S81x2560.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S320x2560.size a < S320x20000.size a
  hwx0_7 : ∀ i : grid0.Coords, EltTy.bits .f32 = 32 ∨ (Rect.unit (s := S320x20000) (fun a => cc0_transform_7 i a * S320x2560.size a) (fun a => (Pipeline.Clip.of (cc0_transform_7 i a) (S320x2560.size a) (S320x20000.size a)).extent (S320x2560.size a)) fun a => Pipeline.Clip.inb (Pipeline.Clip.ok_of (hstart0_7 i a))).WholeWords (EltTy.packing .f32)
  hwxs0_7 : ∀ i : grid0.Coords, EltTy.bits .f32 = 32 ∨ (Rect.unit (s := S320x2560) (fun _ => 0) (fun a => (Pipeline.Clip.of (cc0_transform_7 i a) (S320x2560.size a) (S320x20000.size a)).extent (S320x2560.size a)) fun a => (Nat.zero_add _).trans_le (Pipeline.Clip.extent_le (Pipeline.Clip.ok_of (hstart0_7 i a)))).WholeWords (EltTy.packing .f32)

variable [Facts₀]

def dot_S81x1024_S1280x1024_S81x1280_1_1_0_0_n_n : DotDims S81x1024 S1280x1024 S81x1280 where
  lhsContracting := [1]
  rhsContracting := [1]
  lhsNonContracting := [0]
  rhsNonContracting := [0]
  lhsBatch := []
  rhsBatch := []
  wf := dot_S81x1024_S1280x1024_S81x1280_1_1_0_0_n_n_wf
def dot_S320x1024_S1280x1024_S320x1280_1_1_0_0_n_n : DotDims S320x1024 S1280x1024 S320x1280 where
  lhsContracting := [1]
  rhsContracting := [1]
  lhsNonContracting := [0]
  rhsNonContracting := [0]
  lhsBatch := []
  rhsBatch := []
  wf := dot_S320x1024_S1280x1024_S320x1280_1_1_0_0_n_n_wf

abbrev win0_0 : Pipeline.Window sig grid0 :=
  Pipeline.Window.ofSpecClip (Memref.whole main_arg0) S1280x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S1280x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S81x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x81.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S320x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x320.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_call0_v2_0) S81x2560.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_call0_v2_1) S320x2560.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1024x81 : Shape := ⟨2, ![1024, 81]⟩
abbrev S20000x81 : Shape := ⟨2, ![20000, 81]⟩
abbrev S1x81 : Shape := ⟨2, ![1, 81]⟩
abbrev S1024x320 : Shape := ⟨2, ![1024, 320]⟩
abbrev S20000x320 : Shape := ⟨2, ![20000, 320]⟩
abbrev S1x320 : Shape := ⟨2, ![1, 320]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1024x81, .f32⟩
  | .hbm, ⟨6, _⟩ => ⟨S20000x81, .f32⟩
  | .hbm, ⟨7, _⟩ => ⟨S1x81, .f32⟩
  | .hbm, ⟨8, _⟩ => ⟨S20000x81, .f32⟩
  | .hbm, ⟨9, _⟩ => ⟨S20000x81, .f32⟩
  | .hbm, ⟨10, _⟩ => ⟨S1024x320, .f32⟩
  | .hbm, ⟨11, _⟩ => ⟨S20000x320, .f32⟩
  | .hbm, ⟨12, _⟩ => ⟨S1x320, .f32⟩
  | .hbm, ⟨13, _⟩ => ⟨S20000x320, .f32⟩
  | .hbm, ⟨14, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S81x1024_S1024x81_1_0 : S81x1024.Transposes [1, 0] S1024x81
  bcast_S81_S1x81_1 : S81.BroadcastsInDim S1x81 (![1] : Fin 1 → Fin S1x81.rank)
  bcast_S1x81_S20000x81_0_1 : S1x81.BroadcastsInDim S20000x81 (![0, 1] : Fin 2 → Fin S20000x81.rank)
  transposes_S320x1024_S1024x320_1_0 : S320x1024.Transposes [1, 0] S1024x320
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  dot_S20000x1024_S1024x81_S20000x81_1_0_0_1_n_n_wf : DotDims.WF S20000x1024 S1024x81 S20000x81 [1] [0] [0] [1] [] []
  dot_S20000x1024_S1024x320_S20000x320_1_0_0_1_n_n_wf : DotDims.WF S20000x1024 S1024x320 S20000x320 [1] [0] [0] [1] [] []

variable [Facts₀]

def dot_S20000x1024_S1024x81_S20000x81_1_0_0_1_n_n : DotDims S20000x1024 S1024x81 S20000x81 where
  lhsContracting := [1]
  rhsContracting := [0]
  lhsNonContracting := [0]
  rhsNonContracting := [1]
  lhsBatch := []
  rhsBatch := []
  wf := dot_S20000x1024_S1024x81_S20000x81_1_0_0_1_n_n_wf
def dot_S20000x1024_S1024x320_S20000x320_1_0_0_1_n_n : DotDims S20000x1024 S1024x320 S20000x320 where
  lhsContracting := [1]
  rhsContracting := [0]
  lhsNonContracting := [0]
  rhsNonContracting := [1]
  lhsBatch := []
  rhsBatch := []
  wf := dot_S20000x1024_S1024x320_S20000x320_1_0_0_1_n_n_wf

class Facts : Prop extends Facts₀ where

variable [Facts]
-- ==== Proof.BitsBody.lean ====
import proofs.«173869_g6244882448852_cont_9to1_m_469_22_alg».proof.Proof.Gen.Kernel.Launch
import proofs.«173869_g6244882448852_cont_9to1_m_469_22_alg».proof.Proof.Gen.Kernel.Points
import proofs.«173869_g6244882448852_cont_9to1_m_469_22_alg».proof.Proof.Gen.Kernel.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## What the body leaves in the two result blocks

The body loads both row stripes of `x` whole, both weight matrices and both bias rows, and stores four pieces: each result
block's left half from the first stripe and its right half from the second. -/

local notation "𝕄" => MT nD τ sig Unit (Elt F) ℕ (UR sig nD τ) ℕ

/-- The rectangles of the body's loads (each a whole staging block) and of its four stores (the two halves of each result block). -/
abbrev rX : Rect S1280x1024 := Rect.unit (s := S1280x1024) ![0, 0] S1280x1024.size inb_S1280x1024_S1280x1024_0_0
abbrev rWc : Rect S81x1024 := Rect.unit (s := S81x1024) ![0, 0] S81x1024.size inb_S81x1024_S81x1024_0_0
abbrev rBc : Rect S1x81 := Rect.unit (s := S1x81) ![0, 0] S1x81.size inb_S1x81_S1x81_0_0
abbrev rWb : Rect S320x1024 := Rect.unit (s := S320x1024) ![0, 0] S320x1024.size inb_S320x1024_S320x1024_0_0
abbrev rBb : Rect S1x320 := Rect.unit (s := S1x320) ![0, 0] S1x320.size inb_S1x320_S1x320_0_0
abbrev rCl : Rect S81x2560 := Rect.unit (s := S81x2560) ![0, 0] S81x1280.size inb_S81x2560_S81x1280_0_0
abbrev rCr : Rect S81x2560 := Rect.unit (s := S81x2560) ![0, 1280] S81x1280.size inb_S81x2560_S81x1280_0_1280
abbrev rDl : Rect S320x2560 := Rect.unit (s := S320x2560) ![0, 0] S320x1280.size inb_S320x2560_S320x1280_0_0
abbrev rDr : Rect S320x2560 := Rect.unit (s := S320x2560) ![0, 1280] S320x1280.size inb_S320x2560_S320x1280_0_1280

/-- The class-score block after the body: columns 0‥1279 from the first stripe of rows of `x`, columns 1280‥2559 from
    the second (the later store listed first). -/
def outC (x0 x1 : Vec F S1280x1024 .f32) (w : Vec F S81x1024 .f32) (b : Vec F S1x81 .f32) : Vec F S81x2560 .f32 :=
  View.canon [⟨rCr, k0_pay5 (View.ld x1 rX) (View.ld b rBc) (View.ld w rWc)⟩, ⟨rCl, k0_pay3 (View.ld x0 rX) (View.ld b rBc) (View.ld w rWc)⟩]

/-- The box-delta block after the body, likewise. -/
def outD (x0 x1 : Vec F S1280x1024 .f32) (w : Vec F S320x1024 .f32) (b : Vec F S1x320 .f32) : Vec F S320x2560 .f32 :=
  View.canon [⟨rDr, k0_pay6 (View.ld x1 rX) (View.ld b rBb) (View.ld w rWb)⟩, ⟨rDl, k0_pay4 (View.ld x0 rX) (View.ld b rBb) (View.ld w rWb)⟩]

/-- The two halves tile a result block, so the stores cover it. -/
theorem coverC (p0 p1 : Vec F S81x1280 .f32) (y : S81x2560.Idx) :
    ∃ pc ∈ ([⟨rCr, p0⟩, ⟨rCl, p1⟩] : List (View.Piece (Elt F) S81x2560 .f32)), y ∈ pc.1.set :=
  View.cover_of_tiled [⟨rCr, p0⟩, ⟨rCl, p1⟩] S81x1280.size (by rfl) y
theorem coverD (p0 p1 : Vec F S320x1280 .f32) (y : S320x2560.Idx) :
    ∃ pc ∈ ([⟨rDr, p0⟩, ⟨rDl, p1⟩] : List (View.Piece (Elt F) S320x2560 .f32)), y ∈ pc.1.set :=
  View.cover_of_tiled [⟨rDr, p0⟩, ⟨rDl, p1⟩] S320x1280.size (by rfl) y

set_option maxHeartbeats 4000000 in
/-- The kernel body on whole staging buffers: the six inputs' at read contents, the two results' at anything. It runs to
    the continuation holding the inputs' as they were and the results' at `outC` / `outD` of the inputs'. -/
theorem sound_kernel (c : Dev nD) (E : Set ℕ) (i : grid0.Coords)
    (arg1 : Memref sig .tc .vmem S1280x1024 .f32) (harg1 : arg1.IsWhole) (arg2 : Memref sig .tc .vmem S1280x1024 .f32) (harg2 : arg2.IsWhole)
    (arg3 : Memref sig .tc .vmem S81x1024 .f32) (harg3 : arg3.IsWhole) (arg4 : Memref sig .tc .vmem S1x81 .f32) (harg4 : arg4.IsWhole)
    (arg5 : Memref sig .tc .vmem S320x1024 .f32) (harg5 : arg5.IsWhole) (arg6 : Memref sig .tc .vmem S1x320 .f32) (harg6 : arg6.IsWhole)
    (arg7 : Memref sig .tc .vmem S81x2560 .f32) (harg7 : arg7.IsWhole) (arg8 : Memref sig .tc .vmem S320x2560 .f32) (harg8 : arg8.IsWhole)
    (x0 x1 : Vec F S1280x1024 .f32) (x2 : Vec F S81x1024 .f32) (x3 : Vec F S1x81 .f32) (x4 : Vec F S320x1024 .f32) (x5 : Vec F S1x320 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outC x0 x1 x2 x3) ∗ owns (c : Thread nD τ) arg8 fullShare (outD x0 x1 x4 x5)) -∗ K ⟨⟩))
      ⊢ wp frame (wpE (defs₀ (F := F)) Variants.none c none) E (cc0__fused_linear_kernel i arg1 harg1 arg2 harg2 arg3 harg3 arg4 harg4 arg5 harg5 arg6 harg6 arg7 harg7 arg8 harg8) K := by
  simp only [cc0__fused_linear_kernel_eq_skeleton]; unfold cc0__fused_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverC _ _)
  iexists _; isplitr
  swap; · iexact H7
  ipureintro
  exact View.read_writes_eq_canon _ _ _ (coverD _ _)

end Cert.Kernel.Hand

end
-- ==== Proof.BitsData.lean ====
import proofs.«173869_g6244882448852_cont_9to1_m_469_22_alg».proof.Proof.BitsBody
import proofs.«173869_g6244882448852_cont_9to1_m_469_22_alg».proof.Proof.Gen.Kernel.Launch
import proofs.«173869_g6244882448852_cont_9to1_m_469_22_alg».proof.Proof.Gen.Kernel.Points
import proofs.«173869_g6244882448852_cont_9to1_m_469_22_alg».proof.Proof.Gen.Kernel.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## @main around the region: two bias reshapes before it, two transposes after it -/

/-- Core `c`'s buffers when the region is entered: the two bias rows have been reshaped to [1, A]. -/
abbrev V (c : Dev nD) (b : Ref sig .tc) : Buf (Elt F) ((c : Thread nD τ).loc b) :=
  StableHlo.after (List.flatten [hostOps0]) (fun b => m (c, b)) b

/-- @main reduces to the region continued by the two transposes, at the contents after the two reshapes. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] hostOps0_sub ⟨rfl, rfl⟩ fun c => (main_chain c).trans rfl

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The zero word: what the proof data writes past an array's end, where nothing reads. -/
abbrev z0 : Elt F .f32 := Scalar.ofBits .f32 0#32

variable (GC : (c : Dev nD) → Buf (Elt F) ((c : Thread nD τ).loc main_call0_v2_0))
  (GD : (c : Dev nD) → Buf (Elt F) ((c : Thread nD τ).loc main_call0_v2_1))

/-- The proof data: the arrays as the region finds them; after the body each input's staging buffer at its block (the
    two row stripes of `x` filled out past the array's end with zeros), each result's at the block of the array it is
    claimed to compute (`GC`, `GD`), filled out likewise; the invariant the scoped rest and the generator register;
    the array `x` shared between its two windows by halves. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => z0) (iblk m c 0 t)
    | ⟨1, _⟩ => win0_1.fill (grid0.coords t) (fun _ => z0) (iblk m c 1 t)
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => z0) ((win0_6.blk t).view.read (Elt F) (GC c))
    | ⟨7, _⟩ => win0_7.fill (grid0.coords t) (fun _ => z0) ((win0_7.blk t).view.read (Elt F) (GD c))
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m GC GD 0 c).A w = V m c (Pipeline.arrRef spec0 w) := by
  dsimp only [dats]

theorem after0 (c : Dev nD) (t : Fin cfg0.N) : (dats m GC GD 0 c).after 0 t = win0_0.fill (grid0.coords t) (fun _ => z0) (iblk m c 0 t) := by dsimp only [dats]
theorem after1 (c : Dev nD) (t : Fin cfg0.N) : (dats m GC GD 0 c).after 1 t = win0_1.fill (grid0.coords t) (fun _ => z0) (iblk m c 1 t) := by dsimp only [dats]
theorem after2 (c : Dev nD) (t : Fin cfg0.N) : (dats m GC GD 0 c).after 2 t = iblk m c 2 t := by dsimp only [dats]
theorem after3 (c : Dev nD) (t : Fin cfg0.N) : (dats m GC GD 0 c).after 3 t = iblk m c 3 t := by dsimp only [dats]
theorem after4 (c : Dev nD) (t : Fin cfg0.N) : (dats m GC GD 0 c).after 4 t = iblk m c 4 t := by dsimp only [dats]
theorem after5 (c : Dev nD) (t : Fin cfg0.N) : (dats m GC GD 0 c).after 5 t = iblk m c 5 t := by dsimp only [dats]
theorem after6 (c : Dev nD) (t : Fin cfg0.N) : (dats m GC GD 0 c).after 6 t = win0_6.fill (grid0.coords t) (fun _ => z0) ((win0_6.blk t).view.read (Elt F) (GC c)) := by dsimp only [dats]
theorem after7 (c : Dev nD) (t : Fin cfg0.N) : (dats m GC GD 0 c).after 7 t = win0_7.fill (grid0.coords t) (fun _ => z0) ((win0_7.blk t).view.read (Elt F) (GD c)) := by dsimp only [dats]

/-- The two stripes of `x` are fetched at every point: the buffer holds the block inside the array, anything past it. -/
theorem before0 (c : Dev nD) (t : Fin cfg0.N) (d) :
    (dats m GC GD 0 c).before 0 t d = win0_0.fill (grid0.coords t) d (iblk m c 0 t) := by
  unfold Dat.before; rw [if_pos (fetch0_0 t)]; rfl
theorem before1 (c : Dev nD) (t : Fin cfg0.N) (d) :
    (dats m GC GD 0 c).before 1 t d = win0_1.fill (grid0.coords t) d (iblk m c 1 t) := by
  unfold Dat.before; rw [if_pos (fetch0_1 t)]; rfl

/-- The weights and the bias rows are fetched once and left in place: the buffer holds the whole array at every point. -/
theorem before2 (c : Dev nD) (t : Fin cfg0.N) (d) : (dats m GC GD 0 c).before 2 t d = iblk m c 2 t :=
  ((dats m GC GD 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m GC GD 0 c).before 3 t d = iblk m c 3 t :=
  ((dats m GC GD 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m GC GD 0 c).before 4 t d = iblk m c 4 t :=
  ((dats m GC GD 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m GC GD 0 c).before 5 t d = iblk m c 5 t :=
  ((dats m GC GD 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.Kernel.Hand

end
-- ==== Proof.BitsOblig.lean ====
import proofs.«173869_g6244882448852_cont_9to1_m_469_22_alg».proof.Proof.BitsData
import proofs.«173869_g6244882448852_cont_9to1_m_469_22_alg».proof.Proof.Gen.Kernel.Launch
import proofs.«173869_g6244882448852_cont_9to1_m_469_22_alg».proof.Proof.Gen.Kernel.Points
import proofs.«173869_g6244882448852_cont_9to1_m_469_22_alg».proof.Proof.Gen.Kernel.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (GC : (c : Dev nD) → Buf (Elt F) ((c : Thread nD τ).loc main_call0_v2_0))
  (GD : (c : Dev nD) → Buf (Elt F) ((c : Thread nD τ).loc main_call0_v2_1))

/-! ## The body at a point -/

/-- The two stripes of `x` as the body finds them at point `t`: the rows inside the array, `d` past its end. -/
abbrev xa (c : Dev nD) (t : Fin cfg0.N) (d : S1280x1024.Idx → Elt F .f32) : Vec F S1280x1024 .f32 := win0_0.fill (grid0.coords t) d (iblk m c 0 t)
abbrev xb (c : Dev nD) (t : Fin cfg0.N) (d : S1280x1024.Idx → Elt F .f32) : Vec F S1280x1024 .f32 := win0_1.fill (grid0.coords t) d (iblk m c 1 t)

/-- The body at point `t`, its windows one by one: the six inputs at what the pipeline put there (the stripes of `x` at
    some fillers `d0`, `d1`), the two results at anything; it leaves the inputs in place and the results at `outC` / `outD`
    of them. -/
theorem sound_body (c : Dev nD) (t : Fin cfg0.N) :
    iprop((dats m GC GD 0 c).Φ t.castSucc ∗ (dats m GC GD 0 c).owesAt () t.castSucc
        ∗ (∃ d, owns (c : Thread nD τ) (st0_0 t) fullShare ((dats m GC GD 0 c).before 0 t d))
        ∗ (∃ d, owns (c : Thread nD τ) (st0_1 t) fullShare ((dats m GC GD 0 c).before 1 t d))
        ∗ (∃ d, owns (c : Thread nD τ) (st0_2 t) fullShare ((dats m GC GD 0 c).before 2 t d))
        ∗ (∃ d, owns (c : Thread nD τ) (st0_3 t) fullShare ((dats m GC GD 0 c).before 3 t d))
        ∗ (∃ d, owns (c : Thread nD τ) (st0_4 t) fullShare ((dats m GC GD 0 c).before 4 t d))
        ∗ (∃ d, owns (c : Thread nD τ) (st0_5 t) fullShare ((dats m GC GD 0 c).before 5 t d))
        ∗ (∃ X, owns (c : Thread nD τ) (st0_6 t) fullShare X)
        ∗ (∃ X, owns (c : Thread nD τ) (st0_7 t) fullShare X))
      ⊢ wp frame (wpE (defs₀ (F := F)) Variants.none c none) Set.univ (bodyAt0 t) (fun _ =>
          iprop(∃ d0 d1, (dats m GC GD 0 c).Φ t.succ ∗ (dats m GC GD 0 c).owesAt () t.succ
            ∗ owns (c : Thread nD τ) (st0_0 t) fullShare (xa m c t d0)
            ∗ owns (c : Thread nD τ) (st0_1 t) fullShare (xb m c t d1)
            ∗ owns (c : Thread nD τ) (st0_2 t) fullShare (iblk m c 2 t)
            ∗ owns (c : Thread nD τ) (st0_3 t) fullShare (iblk m c 3 t)
            ∗ owns (c : Thread nD τ) (st0_4 t) fullShare (iblk m c 4 t)
            ∗ owns (c : Thread nD τ) (st0_5 t) fullShare (iblk m c 5 t)
            ∗ owns (c : Thread nD τ) (st0_6 t) fullShare (outC (xa m c t d0) (xb m c t d1) (iblk m c 2 t) (iblk m c 3 t))
            ∗ owns (c : Thread nD τ) (st0_7 t) fullShare (outD (xa m c t d0) (xb m c t d1) (iblk m c 4 t) (iblk m c 5 t)))) := by
  unfold bodyAt0
  simp only [before0, before1, before2, before3, before4, before5]
  rw [show (dats m GC GD 0 c).Φ t.succ = (dats m GC GD 0 c).Φ t.castSucc from rfl,
    show (dats m GC GD 0 c).owesAt () t.succ = (dats m GC GD 0 c).owesAt () t.castSucc from rfl]
  iintro ⟨HΦ, Ho, ⟨%d0, H0⟩, ⟨%d1, H1⟩, ⟨%d2, H2⟩, ⟨%d3, H3⟩, ⟨%d4, H4⟩, ⟨%d5, H5⟩, H6, H7⟩
  iapply (sound_kernel c Set.univ (grid0.coords t) _ _ _ _ _ _ _ _ _ _ _ _ _ _ _ _ (xa m c t d0) (xb m c t d1) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iexists d0; iexists d1
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result windows forgotten: what a claim that does not read the results' contents asks of the body. -/
def fgtOut : Fin 8 → Bool := fun | 0 => false | 1 => false | 2 => false | 3 => false | 4 => false | 5 => false | 6 => true | 7 => true | ⟨_ + 8, h⟩ => absurd h (Nat.not_lt.2 (Nat.le_add_left _ _))

theorem body_forget (c : Dev nD) : BodyObligationLoose (dats m GC GD 0 c) (defs₀ (F := F)) Variants.none () Set.univ fgtOut := fun t => by
  rw [bigSep_W0, bigSep_W0]
  simp only [fgtOut]
  refine (sound_body m GC GD c t).trans (wp_mono _ _ _ fun _ => ?_)
  rw [after0, after1, after2, after3, after4, after5]
  iintro ⟨%d0, %d1, HΦ, Ho, H0, H1, H2, H3, H4, H5, H6, H7⟩
  isplitl [HΦ]; · iexact HΦ
  isplitl [Ho]; · iexact Ho
  isplitl [H0]
  · iexists d0; rw [Pipeline.Window.cut_fill]; iexact H0
  isplitl [H1]
  · iexists d1; rw [Pipeline.Window.cut_fill]; iexact H1
  isplitl [H2]; · iexact H2
  isplitl [H3]; · iexact H3
  isplitl [H4]; · iexact H4
  isplitl [H5]; · iexact H5
  isplitl [H6]; · iexists _; iexact H6
  iexists _; iexact H7

/-- The results named: when, on the part of each result block inside its array, what the body computes from the stripes
    of `x` (whatever fills them out past the array's end) is the claimed array's block, the body leaves every window as
    the proof data says. -/
theorem body_named (c : Dev nD)
    (hC : ∀ t d0 d1, win0_6.cut (grid0.coords t) (outC (xa m c t d0) (xb m c t d1) (iblk m c 2 t) (iblk m c 3 t)) = (win0_6.blk t).view.read (Elt F) (GC c))
    (hD : ∀ t d0 d1, win0_7.cut (grid0.coords t) (outD (xa m c t d0) (xb m c t d1) (iblk m c 4 t) (iblk m c 5 t)) = (win0_7.blk t).view.read (Elt F) (GD c)) :
    BodyObligationLoose (dats m GC GD 0 c) (defs₀ (F := F)) Variants.none () Set.univ := fun t => by
  rw [bigSep_W0, bigSep_W0]
  simp only []
  refine BIBase.Entails.trans ?_ ((sound_body m GC GD c t).trans (wp_mono _ _ _ fun _ => ?_))
  · iintro ⟨HΦ, Ho, H0, H1, H2, H3, H4, H5, ⟨%d6, H6⟩, ⟨%d7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  rw [after0, after1, after2, after3, after4, after5, after6, after7]
  iintro ⟨%d0, %d1, HΦ, Ho, H0, H1, H2, H3, H4, H5, H6, H7⟩
  isplitl [HΦ]; · iexact HΦ
  isplitl [Ho]; · iexact Ho
  isplitl [H0]
  · iexists d0; rw [Pipeline.Window.cut_fill]; iexact H0
  isplitl [H1]
  · iexists d1; rw [Pipeline.Window.cut_fill]; iexact H1
  isplitl [H2]; · iexact H2
  isplitl [H3]; · iexact H3
  isplitl [H4]; · iexact H4
  isplitl [H5]; · iexact H5
  isplitl [H6]
  · iexists (outC (xa m c t d0) (xb m c t d1) (iblk m c 2 t) (iblk m c 3 t))
    rw [Pipeline.Window.cut_fill, ← hC t d0 d1, Pipeline.Window.fill_cut]; iexact H6
  iexists (outD (xa m c t d0) (xb m c t d1) (iblk m c 4 t) (iblk m c 5 t))
  rw [Pipeline.Window.cut_fill, ← hD t d0 d1, Pipeline.Window.fill_cut]; iexact H7

end Cert.Kernel.Hand

end
-- ==== Proof.BitsLaunch.lean ====
import proofs.«173869_g6244882448852_cont_9to1_m_469_22_alg».proof.Proof.BitsOblig
import proofs.«173869_g6244882448852_cont_9to1_m_469_22_alg».proof.Proof.Gen.Kernel.Launch
import proofs.«173869_g6244882448852_cont_9to1_m_469_22_alg».proof.Proof.Gen.Kernel.Points
import proofs.«173869_g6244882448852_cont_9to1_m_469_22_alg».proof.Proof.Gen.Kernel.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (GC : (c : Dev nD) → Buf (Elt F) ((c : Thread nD τ).loc main_call0_v2_0))
  (GD : (c : Dev nD) → Buf (Elt F) ((c : Thread nD τ).loc main_call0_v2_1))
variable (fgt : Fin 8 → Bool)

/-! ## The launch -/

/-- No prefetched table: the one admissible contents. -/
abbrev adm : (p : Fin 1) → (pcfgs (F := F) p).Adm := fun p => (cfgs p).toPCfg_adm

/-- The launch element: every staging cell's owner at round 0 and a duty token for every transfer the pipeline issues. -/
def u₀ : UR sig nD τ := initOf (Pipeline.cells cfgs cellOf_inj) (Pipeline.launchToks cfgs cellOf_inj)

/-- The proof data read relationally, the windows `fgt` marks forgotten. -/
abbrev rdats (p : Fin 1) (c : Dev nD) : Pipeline.RDat τ (Elt F) Unit ℕ (UR sig nD τ) ℕ cfg0 c := (dats m GC GD p c).toRForget fgt

/-- What the buffers that bypass the region satisfy in a final memory: the two bias vectors as the region found them,
    the two results the transposes of contents the two result arrays may hold after the last write-back. -/
def QY (c : Dev nD) (s : MemSt nD τ sig (Elt F)) : Prop :=
  s.mem ((c : Thread nD τ).loc main_arg2) = V m c main_arg2
  ∧ s.mem ((c : Thread nD τ).loc main_arg4) = V m c main_arg4
  ∧ ∃ (FC : Buf (Elt F) ((c : Thread nD τ).loc main_call0_v2_0)) (FD : Buf (Elt F) ((c : Thread nD τ).loc main_call0_v2_1)),
      (rdats m GC GD fgt 0 c).ArrAt 6 cfg0.N FC ∧ (rdats m GC GD fgt 0 c).ArrAt 7 cfg0.N FD
      ∧ s.mem ((c : Thread nD τ).loc main_v0_0) = transpose S20000x81 [1, 0] FC transposes_S81x20000_S20000x81_1_0
      ∧ s.mem ((c : Thread nD τ).loc main_v0_1) = transpose S20000x320 [1, 0] FD transposes_S320x20000_S20000x320_1_0

/-- The same, held: what the two transposes leave of the buffers that bypass the region. -/
def Ztail (c : Dev nD) : sProp 𝕄 :=
  iprop((((c : Thread nD τ).loc main_arg2) ↦{fullShare} V m c main_arg2) ∗ (((c : Thread nD τ).loc main_arg4) ↦{fullShare} V m c main_arg4)
    ∗ ∃ (FC : Buf (Elt F) ((c : Thread nD τ).loc main_call0_v2_0)) (FD : Buf (Elt F) ((c : Thread nD τ).loc main_call0_v2_1)),
        ⌜(rdats m GC GD fgt 0 c).ArrAt 6 cfg0.N FC ∧ (rdats m GC GD fgt 0 c).ArrAt 7 cfg0.N FD⌝
        ∗ (((c : Thread nD τ).loc main_v0_0) ↦{fullShare} transpose S20000x81 [1, 0] FC transposes_S81x20000_S20000x81_1_0)
        ∗ (((c : Thread nD τ).loc main_v0_1) ↦{fullShare} transpose S20000x320 [1, 0] FD transposes_S320x20000_S20000x320_1_0))

/-- What a final memory satisfies: every array of the pipeline at contents the write-backs may have left, and `QY`. -/
def QC : PUnit × MemSt nD τ sig (Elt F) → Prop := fun r => ∀ c : Dev nD,
  (∀ w : Fin cfg0.W, (rdats m GC GD fgt 0 c).ArrAt w cfg0.N (r.2.mem ((cfg0.win w).arr.view.loc (c : Thread nD τ))))
  ∧ QY m GC GD fgt c r.2

/-- The proof data's arrays, window by window, as points-tos of the buffers behind them (generic in the window: each
    array is a whole buffer). -/
theorem arrays_eq_refs (c : Dev nD) :
    ((rdats m GC GD fgt 0 c).arrays (rdats m GC GD fgt 0 c).A : sProp 𝕄)
      = bigSep Finset.univ fun w : Fin 8 => (((c : Thread nD τ).loc (Pipeline.arrRef spec0 w)) ↦{(rdats m GC GD fgt 0 c).share w} V m c (Pipeline.arrRef spec0 w)) := by
  unfold Pipeline.RDat.arrays
  exact bigSep_congr fun w _ => by
    rw [(arr_whole0 w).set_eq_univ, show (rdats m GC GD fgt 0 c).A w = V m c (Pipeline.arrRef spec0 w) from A_eq m GC GD c w]

/-- The buffers behind the windows' arrays, as the launch hands them over, make the proof data's arrays: the array `x`,
    which two windows read, is split between them by halves. -/
theorem hsplit_ok (c : Dev nD) :
    (Pipeline.arrBufs (Ix := Unit) (Name := ℕ) (U := UR sig nD τ) (Lvl := ℕ) spec0 c (V m c) : sProp 𝕄)
      ⊢ (rdats m GC GD fgt 0 c).arrays (rdats m GC GD fgt 0 c).A := by
  have hl : (Finset.univ.image (Pipeline.arrRef spec0)) = ([main_arg0, main_arg1, main_call0_v0, main_arg3, main_call0_v1, main_call0_v2_0, main_call0_v2_1] : List (Ref sig .tc)).toFinset := by decide
  have harrs : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_call0_v0) ↦{fullShare} V m c main_call0_v0) ∗ (((c : Thread nD τ).loc main_arg3) ↦{fullShare} V m c main_arg3)
          ∗ (((c : Thread nD τ).loc main_call0_v1) ↦{fullShare} V m c main_call0_v1) ∗ (((c : Thread nD τ).loc main_call0_v2_0) ↦{fullShare} V m c main_call0_v2_0)
          ∗ (((c : Thread nD τ).loc main_call0_v2_1) ↦{fullShare} V m c main_call0_v2_1)) :=
    bigSep_eq_bigSepL_of_eq _ hl (by decide) _
  rw [harrs, arrays_eq_refs, bigSep_W0]
  rw [show Pipeline.arrRef spec0 (0 : Fin 8) = main_arg0 from rfl,
    show Pipeline.arrRef spec0 (2 : Fin 8) = main_arg1 from rfl, show Pipeline.arrRef spec0 (3 : Fin 8) = main_call0_v0 from rfl,
    show Pipeline.arrRef spec0 (4 : Fin 8) = main_arg3 from rfl, show Pipeline.arrRef spec0 (5 : Fin 8) = main_call0_v1 from rfl,
    show Pipeline.arrRef spec0 (6 : Fin 8) = main_call0_v2_0 from rfl, show Pipeline.arrRef spec0 (7 : Fin 8) = main_call0_v2_1 from rfl]
  rw [show (rdats m GC GD fgt 0 c).share (0 : Fin 8) = fullShare.left from rfl, show (rdats m GC GD fgt 0 c).share (1 : Fin 8) = fullShare.right from rfl,
    show (rdats m GC GD fgt 0 c).share (2 : Fin 8) = fullShare from rfl, show (rdats m GC GD fgt 0 c).share (3 : Fin 8) = fullShare from rfl,
    show (rdats m GC GD fgt 0 c).share (4 : Fin 8) = fullShare from rfl, show (rdats m GC GD fgt 0 c).share (5 : Fin 8) = fullShare from rfl,
    show (rdats m GC GD fgt 0 c).share (6 : Fin 8) = fullShare from rfl, show (rdats m GC GD fgt 0 c).share (7 : Fin 8) = fullShare from rfl]
  iintro ⟨H0, H1, H3, H4, H5, H6, H7⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H3]; · iexact H3
  isplitl [H4]; · iexact H4
  isplitl [H5]; · iexact H5
  isplitl [H6]; · iexact H6
  iexact H7

/-! ## The two transposes after the region -/

/-- The four buffers the two transposes touch. -/
def tailL : List (Ref sig .tc) := [main_call0_v2_0, main_call0_v2_1, main_v0_0, main_v0_1]
def tailS : Finset (DevRef τ sig) := (tailL.map (Proc.devRef (τ := τ) .tc)).toFinset

set_option backward.isDefEq.respectTransparency.types false in
/-- From the region's exit, holding the two result arrays at `FC`, `FD` and the two outputs at anything, the two
    transposes run and leave the outputs at the transposes of `FC`, `FD`. -/
theorem tail_run (c : Dev nD) (FC : Buf (Elt F) ((c : Thread nD τ).loc main_call0_v2_0)) (FD : Buf (Elt F) ((c : Thread nD τ).loc main_call0_v2_1))
    (K : PUnit → sProp 𝕄) :
    iprop(boundary (c.tc : Thread nD τ) ∗ (((c : Thread nD τ).loc main_call0_v2_0) ↦{fullShare} FC) ∗ (((c : Thread nD τ).loc main_call0_v2_1) ↦{fullShare} FD)
        ∗ (((c : Thread nD τ).loc main_v0_0) ↦{fullShare} V m c main_v0_0) ∗ (((c : Thread nD τ).loc main_v0_1) ↦{fullShare} V m c main_v0_1)
        ∗ (iprop(boundary (c.tc : Thread nD τ) ∗ (((c : Thread nD τ).loc main_call0_v2_0) ↦{fullShare} FC) ∗ (((c : Thread nD τ).loc main_call0_v2_1) ↦{fullShare} FD)
            ∗ (((c : Thread nD τ).loc main_v0_0) ↦{fullShare} transpose S20000x81 [1, 0] FC transposes_S81x20000_S20000x81_1_0)
            ∗ (((c : Thread nD τ).loc main_v0_1) ↦{fullShare} transpose S20000x320 [1, 0] FD transposes_S320x20000_S20000x320_1_0)) -∗ K ⟨⟩))
      ⊢ wp frame (wpE (Pipeline.defs (pcfgs (F := F)) defs₀) (Variants.lift Variants.none) (c.tc : Thread nD τ) none) Set.univ
          (Pipeline.chain ([hostOps1].map StableHlo.seq)) K := by
  classical
  let W0 : Valuation τ sig (Elt F) := StableHlo.after (List.flatten [hostOps0]) (fun b => m (c, b))
  let W : Valuation τ sig (Elt F) := Function.update (Function.update W0 (Proc.devRef .tc main_call0_v2_0) FC) (Proc.devRef .tc main_call0_v2_1) FD
  have hnd : (tailL.map (Proc.devRef (τ := τ) .tc)).Nodup := List.Nodup.map (Proc.devRef_injective _) (by decide)
  have hheld : ∀ W' : Valuation τ sig (Elt F), (StableHlo.held (c.tc : Thread nD τ) tailS W' : sProp 𝕄)
      = iprop((((c.tc : Thread nD τ).1, Proc.devRef .tc main_call0_v2_0) ↦{fullShare} W' (Proc.devRef .tc main_call0_v2_0))
          ∗ (((c.tc : Thread nD τ).1, Proc.devRef .tc main_call0_v2_1) ↦{fullShare} W' (Proc.devRef .tc main_call0_v2_1))
          ∗ (((c.tc : Thread nD τ).1, Proc.devRef .tc main_v0_0) ↦{fullShare} W' (Proc.devRef .tc main_v0_0))
          ∗ (((c.tc : Thread nD τ).1, Proc.devRef .tc main_v0_1) ↦{fullShare} W' (Proc.devRef .tc main_v0_1))) :=
    fun W' => bigSep_eq_bigSepL _ hnd _
  have w6 : W (Proc.devRef .tc main_call0_v2_0) = FC := by
    show Function.update (Function.update W0 _ FC) _ FD _ = FC
    rw [Function.update_of_ne (StableHlo.devRef_ne_of_ne (by decide)), Function.update_self]
  have w7 : W (Proc.devRef .tc main_call0_v2_1) = FD := by
    show Function.update (Function.update W0 _ FC) _ FD _ = FD
    rw [Function.update_self]
  have w0 : W (Proc.devRef .tc main_v0_0) = V m c main_v0_0 := by
    show Function.update (Function.update W0 _ FC) _ FD _ = _
    rw [Function.update_of_ne (StableHlo.devRef_ne_of_ne (by decide)), Function.update_of_ne (StableHlo.devRef_ne_of_ne (by decide))]
  have w1 : W (Proc.devRef .tc main_v0_1) = V m c main_v0_1 := by
    show Function.update (Function.update W0 _ FC) _ FD _ = _
    rw [Function.update_of_ne (StableHlo.devRef_ne_of_ne (by decide)), Function.update_of_ne (StableHlo.devRef_ne_of_ne (by decide))]
  have a6 : StableHlo.after hostOps1 W (Proc.devRef .tc main_call0_v2_0) = FC := by
    unfold hostOps1; after_results; exact w6
  have a7 : StableHlo.after hostOps1 W (Proc.devRef .tc main_call0_v2_1) = FD := by
    unfold hostOps1; after_results; exact w7
  have a0 : StableHlo.after hostOps1 W (Proc.devRef .tc main_v0_0) = transpose S20000x81 [1, 0] FC transposes_S81x20000_S20000x81_1_0 := by
    unfold hostOps1; after_results; rw [w6]; rfl
  have a1 : StableHlo.after hostOps1 W (Proc.devRef .tc main_v0_1) = transpose S20000x320 [1, 0] FD transposes_S320x20000_S20000x320_1_0 := by
    unfold hostOps1; after_results; rw [w7]; rfl
  have hS : ∀ op ∈ (hostOps1 : List (HloOp τ sig (Elt F))), op.bufs ⊆ tailS := by
    intro op hop
    simp only [hostOps1, List.mem_cons, List.mem_nil_iff, _root_.or_false] at hop
    rcases hop with rfl | rfl <;> intro b hb <;>
      (simp only [StableHlo.TRef.unary, StableHlo.unary_bufs, Finset.mem_insert, Finset.mem_singleton] at hb
       rcases hb with rfl | rfl <;> exact List.mem_toFinset.mpr (List.mem_map.mpr ⟨_, by decide, rfl⟩))
  have hf : ∀ op ∈ (hostOps1 : List (HloOp τ sig (Elt F))), op.fresh = ∅ := by
    intro _ h; (repeat (cases h with | head => rfl | tail _ h => ?_)); exact nomatch h
  simp only [List.map_cons, List.map_nil, Pipeline.chain_cons, Pipeline.chain_nil]
  iintro ⟨Hbd, A6, A7, Z0, Z1, Hk⟩
  iapply (StableHlo.wp_seq (Variants.lift Variants.none) none Set.univ c tailS _ hostOps1 hS hf W) $$ [Hbd A6 A7 Z0 Z1]
  · isplitl [Hbd]; · iexact Hbd
    rw [hheld W, w6, w7, w0, w1]
    isplitl [A6]; · iexact A6
    isplitl [A7]; · iexact A7
    isplitl [Z0]; · iexact Z0
    iexact Z1
  rw [hheld (StableHlo.after hostOps1 W), a6, a7, a0, a1]
  iintro ⟨Hbd, A6, A7, Z0, Z1⟩
  rw [show (pure ⟨⟩ : Prog _ PUnit) = Prog.ret ⟨⟩ from rfl, wp_ret]
  imodintro
  iapply Hk
  isplitl [Hbd]; · iexact Hbd
  isplitl [A6]; · iexact A6
  isplitl [A7]; · iexact A7
  isplitl [Z0]; · iexact Z0
  iexact Z1

/-- The arrays after the write-backs, window by window, likewise. -/
theorem arraysAt_eq_refs (c : Dev nD) (n : Nat) :
    ((rdats m GC GD fgt 0 c).arraysAt n : sProp 𝕄)
      = bigSep Finset.univ fun w : Fin 8 => iprop(∃ X : Buf (Elt F) ((c : Thread nD τ).loc (Pipeline.arrRef spec0 w)),
          ⌜(rdats m GC GD fgt 0 c).ArrAt w n X⌝ ∗ (((c : Thread nD τ).loc (Pipeline.arrRef spec0 w)) ↦{(rdats m GC GD fgt 0 c).share w} X)) := by
  unfold Pipeline.RDat.arraysAt
  exact bigSep_congr fun w _ => by rw [(arr_whole0 w).set_eq_univ]

/-- After the region: the two transposes run within the two result arrays (read) and the two outputs (written), and leave
    what `Ztail` says. -/
theorem htail_ok (c : Dev nD) (Q' : PUnit → sProp 𝕄) :
    iprop((iprop((rdats m GC GD fgt 0 c).arraysAt cfg0.N ∗ Ztail m GC GD fgt c) -∗ Q' ⟨⟩)
        ∗ boundary (c.tc : Thread nD τ) ∗ (rdats m GC GD fgt 0 c).arraysAt cfg0.N ∗ Pipeline.unscopedRest spec0 c (V m c))
      ⊢ wp frame (wpE (Pipeline.defs (pcfgs (F := F)) defs₀) (Variants.lift Variants.none) (c.tc : Thread nD τ) none) Set.univ
          (Pipeline.chain ([hostOps1].map StableHlo.seq)) Q' := by
  rw [arraysAt_eq_refs, bigSep_W0, unscopedRest0_eq]
  rw [show (rdats m GC GD fgt 0 c).share (6 : Fin 8) = fullShare from rfl, show (rdats m GC GD fgt 0 c).share (7 : Fin 8) = fullShare from rfl]
  unfold Ztail
  iintro ⟨Hk, Hbd, ⟨A0, A1, A2, A3, A4, A5, ⟨%FC, %hFC, A6⟩, ⟨%FD, %hFD, A7⟩⟩, ⟨Z2, Z4, Zo0, Zo1⟩⟩
  iapply (tail_run m c FC FD Q')
  isplitl [Hbd]; · iexact Hbd
  isplitl [A6]; · iexact A6
  isplitl [A7]; · iexact A7
  isplitl [Zo0]; · iexact Zo0
  isplitl [Zo1]; · iexact Zo1
  iintro ⟨-, A6, A7, Zo0, Zo1⟩
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]
    · iexists FC; isplitr; · ipureintro; exact hFC
      iexact A6
    iexists FD; isplitr; · ipureintro; exact hFD
    iexact A7
  isplitl [Z2]; · iexact Z2
  isplitl [Z4]; · iexact Z4
  iexists FC; iexists FD
  isplitr; · ipureintro; exact ⟨hFC, hFD⟩
  isplitl [Zo0]; · iexact Zo0
  iexact Zo1

/-- The buffers that bypass the region, read against a final state. -/
theorem hY_ok (c : Dev nD) (s' : Phys nD τ sig (Elt F)) :
    iprop((∃ r, prngReg c r) ∗ Ztail m GC GD fgt c ∗ SI s') ⊢ |={Set.univ}=> iprop(⌜QY m GC GD fgt c s'.mem⌝ ∗ SI s') := by
  unfold Ztail
  iintro ⟨-, ⟨H2, H4, ⟨%FC, %FD, %hF, H0, H1⟩⟩, HSI⟩
  icombine HSI H2 gives %h2
  icombine HSI H4 gives %h4
  icombine HSI H0 gives %h0
  icombine HSI H1 gives %h1
  imodintro
  isplitr
  · ipureintro
    exact ⟨Buf.eq_of_forall_mem_univ h2, Buf.eq_of_forall_mem_univ h4, FC, FD, hF.1, hF.2, Buf.eq_of_forall_mem_univ h0, Buf.eq_of_forall_mem_univ h1⟩
  iexact HSI

/-! ## The run -/

set_option backward.isDefEq.respectTransparency.types false in
/-- At the compiled mesh, for any float values, from any memory with zero counters: every weakly fair execution of @main
    on the TensorCores terminates, and every final memory satisfies `QC`. -/
theorem run_main (hbody : ∀ c, (rdats m GC GD fgt 0 c).BodyObligation (defs₀ (F := F)) Variants.none () Set.univ) :
    θ_run defs (onTc (τ := τ) (main (F := F))) (s₀ m ρ) (QC m GC GD fgt) :=
  Pipeline.RDat.θ_run_region_pf_tail (pcfgs (F := F)) adm (rdats m GC GD fgt) () cellOf_inj (0 : Fin 1) winFacts₀0 (Pipeline.OwnSemFacts.none _) (Pipeline.PreFacts.none _) EP defs₀ Variants.none m ρ main
    (fun _ => Pipeline.chain ([hostOps1].map StableHlo.seq))
    (hbody := hbody) (hne := block_pos0) (harr := arr_whole0) (hstage := stage_whole0) (howed := fun _ _ => rfl)
    (G := fun _ => iprop(emp)) (u₀ := u₀)
    (hu₀ := by
      have h : (ownU (u₀ : UR sig nD τ) : sProp 𝕄) ⊢ BI.own (EP (initOf (Pipeline.cells (Pipeline.pin (pcfgs (F := F)) adm) cellOf_inj) (Pipeline.launchToks (Pipeline.pin (pcfgs (F := F)) adm) cellOf_inj))) := BI.Entails.refl _
      iintro Hu
      imodintro
      isplitl [Hu]
      · iapply h; iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit_ok m GC GD fgt)
    (hpf := fun _ k => k.elim0)
    (X := fun c => prngReg c (ρ c)) (Y := fun c => iprop(∃ r, prngReg c r))
    (Z := fun c => Pipeline.unscopedRest spec0 c (V m c))
    (Z' := Ztail m GC GD fgt)
    (hX := fun c => by
      rw [Pipeline.unscopedRestP_none]
      iintro ⟨HR, -, -, -, Hp, -⟩
      imodintro
      isplitl [Hp]; · iexact Hp
      iexact HR)
    (hin := fun c => by
      show _ ⊢ Pipeline.ΦA spec0 c
      unfold Pipeline.ΦA
      iintro ⟨Hp, -, Hr⟩
      isplitl [Hr]; · iexact Hr
      iexists _; iexact Hp)
    (hout := fun c => by
      show Pipeline.ΦA spec0 c ⊢ _
      unfold Pipeline.ΦA
      rw [Pipeline.ownSems0_none]
      iintro ⟨Hr, Hp⟩
      isplitl [Hp]; · iexact Hp
      isplitr; · iempintro
      iexact Hr)
    (htail := htail_ok m GC GD fgt)
    (QY := QY m GC GD fgt)
    (hY := hY_ok m GC GD fgt)
    (hQ := fun s h c => ⟨(h c).1, (h c).2.2⟩)

/-! ## What the region finds: the arguments as launched, the bias rows reshaped -/

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
/-- The class bias as the region finds it: the vector reshaped to a row [1, 81]; the box bias likewise [1, 320]. -/
theorem V_biasC (c : Dev nD) : (V m c main_call0_v0 : S1x81.Idx → Elt F .f32) = shapeCast S1x81 (m ((c : Thread nD τ).loc main_arg2)) shapeCasts_S81_S1x81 := by
  show StableHlo.after hostOps0 (fun b => m (c, b)) (Proc.devRef .tc main_call0_v0) = _
  after_results; rfl
theorem V_biasD (c : Dev nD) : (V m c main_call0_v1 : S1x320.Idx → Elt F .f32) = shapeCast S1x320 (m ((c : Thread nD τ).loc main_arg4)) shapeCasts_S320_S1x320 := by
  show StableHlo.after hostOps0 (fun b => m (c, b)) (Proc.devRef .tc main_call0_v1) = _
  after_results; rfl

/-! ## The frame -/

/-- The program runs to the end, faults nowhere and leaves its five arguments as launched (at any float values): the
    run with the two result windows forgotten; an input window's array is never written, and the two bias vectors
    bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_)
    (run_main m ρ (fun _ _ => z0) (fun _ _ => z0) fgtOut (fun c => (body_forget m (fun _ _ => z0) (fun _ _ => z0) c).toRForget))
  obtain ⟨hw, h2, h4, -⟩ := h c
  have a0 := hw 0; rw [Pipeline.RDat.ArrAt_in _ 0 rfl] at a0
  have a1 := hw 2; rw [Pipeline.RDat.ArrAt_in _ 2 rfl] at a1
  have a3 := hw 4; rw [Pipeline.RDat.ArrAt_in _ 4 rfl] at a3
  exact ⟨a0.trans ((A_eq m (fun _ _ => z0) (fun _ _ => z0) c 0).trans (V_arg0 m c)), a1.trans ((A_eq m (fun _ _ => z0) (fun _ _ => z0) c 2).trans (V_arg1 m c)), h2.trans (V_arg2 m c),
    a3.trans ((A_eq m (fun _ _ => z0) (fun _ _ => z0) c 4).trans (V_arg3 m c)), h4.trans (V_arg4 m c)⟩

end Cert.Kernel.Hand

end
-- ==== Proof.IdealBody.lean ====
import proofs.«173869_g6244882448852_cont_9to1_m_469_22_alg».proof.Proof.Gen.KernelIdeal.Launch
import proofs.«173869_g6244882448852_cont_9to1_m_469_22_alg».proof.Proof.Gen.KernelIdeal.Points
import proofs.«173869_g6244882448852_cont_9to1_m_469_22_alg».proof.Proof.Gen.KernelIdeal.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## What the body leaves in the two result blocks

The body loads both row stripes of `x` whole, both weight matrices and both bias rows, and stores four pieces: each result
block's left half from the first stripe and its right half from the second. -/

local notation "𝕄" => MT nD τ sig Unit (Elt F) ℕ (UR sig nD τ) ℕ

/-- The rectangles of the body's loads (each a whole staging block) and of its four stores (the two halves of each result block). -/
abbrev rX : Rect S1280x1024 := Rect.unit (s := S1280x1024) ![0, 0] S1280x1024.size inb_S1280x1024_S1280x1024_0_0
abbrev rWc : Rect S81x1024 := Rect.unit (s := S81x1024) ![0, 0] S81x1024.size inb_S81x1024_S81x1024_0_0
abbrev rBc : Rect S1x81 := Rect.unit (s := S1x81) ![0, 0] S1x81.size inb_S1x81_S1x81_0_0
abbrev rWb : Rect S320x1024 := Rect.unit (s := S320x1024) ![0, 0] S320x1024.size inb_S320x1024_S320x1024_0_0
abbrev rBb : Rect S1x320 := Rect.unit (s := S1x320) ![0, 0] S1x320.size inb_S1x320_S1x320_0_0
abbrev rCl : Rect S81x2560 := Rect.unit (s := S81x2560) ![0, 0] S81x1280.size inb_S81x2560_S81x1280_0_0
abbrev rCr : Rect S81x2560 := Rect.unit (s := S81x2560) ![0, 1280] S81x1280.size inb_S81x2560_S81x1280_0_1280
abbrev rDl : Rect S320x2560 := Rect.unit (s := S320x2560) ![0, 0] S320x1280.size inb_S320x2560_S320x1280_0_0
abbrev rDr : Rect S320x2560 := Rect.unit (s := S320x2560) ![0, 1280] S320x1280.size inb_S320x2560_S320x1280_0_1280

/-- The class-score block after the body: columns 0‥1279 from the first stripe of rows of `x`, columns 1280‥2559 from
    the second (the later store listed first). -/
def outC (x0 x1 : Vec F S1280x1024 .f32) (w : Vec F S81x1024 .f32) (b : Vec F S1x81 .f32) : Vec F S81x2560 .f32 :=
  View.canon [⟨rCr, k0_pay5 (View.ld x1 rX) (View.ld b rBc) (View.ld w rWc)⟩, ⟨rCl, k0_pay3 (View.ld x0 rX) (View.ld b rBc) (View.ld w rWc)⟩]

/-- The box-delta block after the body, likewise. -/
def outD (x0 x1 : Vec F S1280x1024 .f32) (w : Vec F S320x1024 .f32) (b : Vec F S1x320 .f32) : Vec F S320x2560 .f32 :=
  View.canon [⟨rDr, k0_pay6 (View.ld x1 rX) (View.ld b rBb) (View.ld w rWb)⟩, ⟨rDl, k0_pay4 (View.ld x0 rX) (View.ld b rBb) (View.ld w rWb)⟩]

/-- The two halves tile a result block, so the stores cover it. -/
theorem coverC (p0 p1 : Vec F S81x1280 .f32) (y : S81x2560.Idx) :
    ∃ pc ∈ ([⟨rCr, p0⟩, ⟨rCl, p1⟩] : List (View.Piece (Elt F) S81x2560 .f32)), y ∈ pc.1.set :=
  View.cover_of_tiled [⟨rCr, p0⟩, ⟨rCl, p1⟩] S81x1280.size (by rfl) y
theorem coverD (p0 p1 : Vec F S320x1280 .f32) (y : S320x2560.Idx) :
    ∃ pc ∈ ([⟨rDr, p0⟩, ⟨rDl, p1⟩] : List (View.Piece (Elt F) S320x2560 .f32)), y ∈ pc.1.set :=
  View.cover_of_tiled [⟨rDr, p0⟩, ⟨rDl, p1⟩] S320x1280.size (by rfl) y

set_option maxHeartbeats 4000000 in
/-- The kernel body on whole staging buffers: the six inputs' at read contents, the two results' at anything. It runs to
    the continuation holding the inputs' as they were and the results' at `outC` / `outD` of the inputs'. -/
theorem sound_kernel (c : Dev nD) (E : Set ℕ) (i : grid0.Coords)
    (arg1 : Memref sig .tc .vmem S1280x1024 .f32) (harg1 : arg1.IsWhole) (arg2 : Memref sig .tc .vmem S1280x1024 .f32) (harg2 : arg2.IsWhole)
    (arg3 : Memref sig .tc .vmem S81x1024 .f32) (harg3 : arg3.IsWhole) (arg4 : Memref sig .tc .vmem S1x81 .f32) (harg4 : arg4.IsWhole)
    (arg5 : Memref sig .tc .vmem S320x1024 .f32) (harg5 : arg5.IsWhole) (arg6 : Memref sig .tc .vmem S1x320 .f32) (harg6 : arg6.IsWhole)
    (arg7 : Memref sig .tc .vmem S81x2560 .f32) (harg7 : arg7.IsWhole) (arg8 : Memref sig .tc .vmem S320x2560 .f32) (harg8 : arg8.IsWhole)
    (x0 x1 : Vec F S1280x1024 .f32) (x2 : Vec F S81x1024 .f32) (x3 : Vec F S1x81 .f32) (x4 : Vec F S320x1024 .f32) (x5 : Vec F S1x320 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outC x0 x1 x2 x3) ∗ owns (c : Thread nD τ) arg8 fullShare (outD x0 x1 x4 x5)) -∗ K ⟨⟩))
      ⊢ wp frame (wpE (defs₀ (F := F)) Variants.none c none) E (cc0__fused_linear_kernel i arg1 harg1 arg2 harg2 arg3 harg3 arg4 harg4 arg5 harg5 arg6 harg6 arg7 harg7 arg8 harg8) K := by
  simp only [cc0__fused_linear_kernel_eq_skeleton]; unfold cc0__fused_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverC _ _)
  iexists _; isplitr
  swap; · iexact H7
  ipureintro
  exact View.read_writes_eq_canon _ _ _ (coverD _ _)

end Cert.KernelIdeal.Hand

end
-- ==== Proof.IdealData.lean ====
import proofs.«173869_g6244882448852_cont_9to1_m_469_22_alg».proof.Proof.IdealBody
import proofs.«173869_g6244882448852_cont_9to1_m_469_22_alg».proof.Proof.Gen.KernelIdeal.Launch
import proofs.«173869_g6244882448852_cont_9to1_m_469_22_alg».proof.Proof.Gen.KernelIdeal.Points
import proofs.«173869_g6244882448852_cont_9to1_m_469_22_alg».proof.Proof.Gen.KernelIdeal.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## @main around the region: two bias reshapes before it, two transposes after it -/

/-- Core `c`'s buffers when the region is entered: the two bias rows have been reshaped to [1, A]. -/
abbrev V (c : Dev nD) (b : Ref sig .tc) : Buf (Elt F) ((c : Thread nD τ).loc b) :=
  StableHlo.after (List.flatten [hostOps0]) (fun b => m (c, b)) b

/-- @main reduces to the region continued by the two transposes, at the contents after the two reshapes. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] hostOps0_sub ⟨rfl, rfl⟩ fun c => (main_chain c).trans rfl

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The zero word: what the proof data writes past an array's end, where nothing reads. -/
abbrev z0 : Elt F .f32 := Scalar.ofBits .f32 0#32

variable (GC : (c : Dev nD) → Buf (Elt F) ((c : Thread nD τ).loc main_call0_v2_0))
  (GD : (c : Dev nD) → Buf (Elt F) ((c : Thread nD τ).loc main_call0_v2_1))

/-- The proof data: the arrays as the region finds them; after the body each input's staging buffer at its block (the
    two row stripes of `x` filled out past the array's end with zeros), each result's at the block of the array it is
    claimed to compute (`GC`, `GD`), filled out likewise; the invariant the scoped rest and the generator register;
    the array `x` shared between its two windows by halves. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => z0) (iblk m c 0 t)
    | ⟨1, _⟩ => win0_1.fill (grid0.coords t) (fun _ => z0) (iblk m c 1 t)
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => z0) ((win0_6.blk t).view.read (Elt F) (GC c))
    | ⟨7, _⟩ => win0_7.fill (grid0.coords t) (fun _ => z0) ((win0_7.blk t).view.read (Elt F) (GD c))
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m GC GD 0 c).A w = V m c (Pipeline.arrRef spec0 w) := by
  dsimp only [dats]

theorem after0 (c : Dev nD) (t : Fin cfg0.N) : (dats m GC GD 0 c).after 0 t = win0_0.fill (grid0.coords t) (fun _ => z0) (iblk m c 0 t) := by dsimp only [dats]
theorem after1 (c : Dev nD) (t : Fin cfg0.N) : (dats m GC GD 0 c).after 1 t = win0_1.fill (grid0.coords t) (fun _ => z0) (iblk m c 1 t) := by dsimp only [dats]
theorem after2 (c : Dev nD) (t : Fin cfg0.N) : (dats m GC GD 0 c).after 2 t = iblk m c 2 t := by dsimp only [dats]
theorem after3 (c : Dev nD) (t : Fin cfg0.N) : (dats m GC GD 0 c).after 3 t = iblk m c 3 t := by dsimp only [dats]
theorem after4 (c : Dev nD) (t : Fin cfg0.N) : (dats m GC GD 0 c).after 4 t = iblk m c 4 t := by dsimp only [dats]
theorem after5 (c : Dev nD) (t : Fin cfg0.N) : (dats m GC GD 0 c).after 5 t = iblk m c 5 t := by dsimp only [dats]
theorem after6 (c : Dev nD) (t : Fin cfg0.N) : (dats m GC GD 0 c).after 6 t = win0_6.fill (grid0.coords t) (fun _ => z0) ((win0_6.blk t).view.read (Elt F) (GC c)) := by dsimp only [dats]
theorem after7 (c : Dev nD) (t : Fin cfg0.N) : (dats m GC GD 0 c).after 7 t = win0_7.fill (grid0.coords t) (fun _ => z0) ((win0_7.blk t).view.read (Elt F) (GD c)) := by dsimp only [dats]

/-- The two stripes of `x` are fetched at every point: the buffer holds the block inside the array, anything past it. -/
theorem before0 (c : Dev nD) (t : Fin cfg0.N) (d) :
    (dats m GC GD 0 c).before 0 t d = win0_0.fill (grid0.coords t) d (iblk m c 0 t) := by
  unfold Dat.before; rw [if_pos (fetch0_0 t)]; rfl
theorem before1 (c : Dev nD) (t : Fin cfg0.N) (d) :
    (dats m GC GD 0 c).before 1 t d = win0_1.fill (grid0.coords t) d (iblk m c 1 t) := by
  unfold Dat.before; rw [if_pos (fetch0_1 t)]; rfl

/-- The weights and the bias rows are fetched once and left in place: the buffer holds the whole array at every point. -/
theorem before2 (c : Dev nD) (t : Fin cfg0.N) (d) : (dats m GC GD 0 c).before 2 t d = iblk m c 2 t :=
  ((dats m GC GD 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m GC GD 0 c).before 3 t d = iblk m c 3 t :=
  ((dats m GC GD 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m GC GD 0 c).before 4 t d = iblk m c 4 t :=
  ((dats m GC GD 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m GC GD 0 c).before 5 t d = iblk m c 5 t :=
  ((dats m GC GD 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.KernelIdeal.Hand

end
-- ==== Proof.IdealOblig.lean ====
import proofs.«173869_g6244882448852_cont_9to1_m_469_22_alg».proof.Proof.IdealData
import proofs.«173869_g6244882448852_cont_9to1_m_469_22_alg».proof.Proof.Gen.KernelIdeal.Launch
import proofs.«173869_g6244882448852_cont_9to1_m_469_22_alg».proof.Proof.Gen.KernelIdeal.Points
import proofs.«173869_g6244882448852_cont_9to1_m_469_22_alg».proof.Proof.Gen.KernelIdeal.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (GC : (c : Dev nD) → Buf (Elt F) ((c : Thread nD τ).loc main_call0_v2_0))
  (GD : (c : Dev nD) → Buf (Elt F) ((c : Thread nD τ).loc main_call0_v2_1))

/-! ## The body at a point -/

/-- The two stripes of `x` as the body finds them at point `t`: the rows inside the array, `d` past its end. -/
abbrev xa (c : Dev nD) (t : Fin cfg0.N) (d : S1280x1024.Idx → Elt F .f32) : Vec F S1280x1024 .f32 := win0_0.fill (grid0.coords t) d (iblk m c 0 t)
abbrev xb (c : Dev nD) (t : Fin cfg0.N) (d : S1280x1024.Idx → Elt F .f32) : Vec F S1280x1024 .f32 := win0_1.fill (grid0.coords t) d (iblk m c 1 t)

/-- The body at point `t`, its windows one by one: the six inputs at what the pipeline put there (the stripes of `x` at
    some fillers `d0`, `d1`), the two results at anything; it leaves the inputs in place and the results at `outC` / `outD`
    of them. -/
theorem sound_body (c : Dev nD) (t : Fin cfg0.N) :
    iprop((dats m GC GD 0 c).Φ t.castSucc ∗ (dats m GC GD 0 c).owesAt () t.castSucc
        ∗ (∃ d, owns (c : Thread nD τ) (st0_0 t) fullShare ((dats m GC GD 0 c).before 0 t d))
        ∗ (∃ d, owns (c : Thread nD τ) (st0_1 t) fullShare ((dats m GC GD 0 c).before 1 t d))
        ∗ (∃ d, owns (c : Thread nD τ) (st0_2 t) fullShare ((dats m GC GD 0 c).before 2 t d))
        ∗ (∃ d, owns (c : Thread nD τ) (st0_3 t) fullShare ((dats m GC GD 0 c).before 3 t d))
        ∗ (∃ d, owns (c : Thread nD τ) (st0_4 t) fullShare ((dats m GC GD 0 c).before 4 t d))
        ∗ (∃ d, owns (c : Thread nD τ) (st0_5 t) fullShare ((dats m GC GD 0 c).before 5 t d))
        ∗ (∃ X, owns (c : Thread nD τ) (st0_6 t) fullShare X)
        ∗ (∃ X, owns (c : Thread nD τ) (st0_7 t) fullShare X))
      ⊢ wp frame (wpE (defs₀ (F := F)) Variants.none c none) Set.univ (bodyAt0 t) (fun _ =>
          iprop(∃ d0 d1, (dats m GC GD 0 c).Φ t.succ ∗ (dats m GC GD 0 c).owesAt () t.succ
            ∗ owns (c : Thread nD τ) (st0_0 t) fullShare (xa m c t d0)
            ∗ owns (c : Thread nD τ) (st0_1 t) fullShare (xb m c t d1)
            ∗ owns (c : Thread nD τ) (st0_2 t) fullShare (iblk m c 2 t)
            ∗ owns (c : Thread nD τ) (st0_3 t) fullShare (iblk m c 3 t)
            ∗ owns (c : Thread nD τ) (st0_4 t) fullShare (iblk m c 4 t)
            ∗ owns (c : Thread nD τ) (st0_5 t) fullShare (iblk m c 5 t)
            ∗ owns (c : Thread nD τ) (st0_6 t) fullShare (outC (xa m c t d0) (xb m c t d1) (iblk m c 2 t) (iblk m c 3 t))
            ∗ owns (c : Thread nD τ) (st0_7 t) fullShare (outD (xa m c t d0) (xb m c t d1) (iblk m c 4 t) (iblk m c 5 t)))) := by
  unfold bodyAt0
  simp only [before0, before1, before2, before3, before4, before5]
  rw [show (dats m GC GD 0 c).Φ t.succ = (dats m GC GD 0 c).Φ t.castSucc from rfl,
    show (dats m GC GD 0 c).owesAt () t.succ = (dats m GC GD 0 c).owesAt () t.castSucc from rfl]
  iintro ⟨HΦ, Ho, ⟨%d0, H0⟩, ⟨%d1, H1⟩, ⟨%d2, H2⟩, ⟨%d3, H3⟩, ⟨%d4, H4⟩, ⟨%d5, H5⟩, H6, H7⟩
  iapply (sound_kernel c Set.univ (grid0.coords t) _ _ _ _ _ _ _ _ _ _ _ _ _ _ _ _ (xa m c t d0) (xb m c t d1) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iexists d0; iexists d1
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result windows forgotten: what a claim that does not read the results' contents asks of the body. -/
def fgtOut : Fin 8 → Bool := fun | 0 => false | 1 => false | 2 => false | 3 => false | 4 => false | 5 => false | 6 => true | 7 => true | ⟨_ + 8, h⟩ => absurd h (Nat.not_lt.2 (Nat.le_add_left _ _))

theorem body_forget (c : Dev nD) : BodyObligationLoose (dats m GC GD 0 c) (defs₀ (F := F)) Variants.none () Set.univ fgtOut := fun t => by
  rw [bigSep_W0, bigSep_W0]
  simp only [fgtOut]
  refine (sound_body m GC GD c t).trans (wp_mono _ _ _ fun _ => ?_)
  rw [after0, after1, after2, after3, after4, after5]
  iintro ⟨%d0, %d1, HΦ, Ho, H0, H1, H2, H3, H4, H5, H6, H7⟩
  isplitl [HΦ]; · iexact HΦ
  isplitl [Ho]; · iexact Ho
  isplitl [H0]
  · iexists d0; rw [Pipeline.Window.cut_fill]; iexact H0
  isplitl [H1]
  · iexists d1; rw [Pipeline.Window.cut_fill]; iexact H1
  isplitl [H2]; · iexact H2
  isplitl [H3]; · iexact H3
  isplitl [H4]; · iexact H4
  isplitl [H5]; · iexact H5
  isplitl [H6]; · iexists _; iexact H6
  iexists _; iexact H7

/-- The results named: when, on the part of each result block inside its array, what the body computes from the stripes
    of `x` (whatever fills them out past the array's end) is the claimed array's block, the body leaves every window as
    the proof data says. -/
theorem body_named (c : Dev nD)
    (hC : ∀ t d0 d1, win0_6.cut (grid0.coords t) (outC (xa m c t d0) (xb m c t d1) (iblk m c 2 t) (iblk m c 3 t)) = (win0_6.blk t).view.read (Elt F) (GC c))
    (hD : ∀ t d0 d1, win0_7.cut (grid0.coords t) (outD (xa m c t d0) (xb m c t d1) (iblk m c 4 t) (iblk m c 5 t)) = (win0_7.blk t).view.read (Elt F) (GD c)) :
    BodyObligationLoose (dats m GC GD 0 c) (defs₀ (F := F)) Variants.none () Set.univ := fun t => by
  rw [bigSep_W0, bigSep_W0]
  simp only []
  refine BIBase.Entails.trans ?_ ((sound_body m GC GD c t).trans (wp_mono _ _ _ fun _ => ?_))
  · iintro ⟨HΦ, Ho, H0, H1, H2, H3, H4, H5, ⟨%d6, H6⟩, ⟨%d7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  rw [after0, after1, after2, after3, after4, after5, after6, after7]
  iintro ⟨%d0, %d1, HΦ, Ho, H0, H1, H2, H3, H4, H5, H6, H7⟩
  isplitl [HΦ]; · iexact HΦ
  isplitl [Ho]; · iexact Ho
  isplitl [H0]
  · iexists d0; rw [Pipeline.Window.cut_fill]; iexact H0
  isplitl [H1]
  · iexists d1; rw [Pipeline.Window.cut_fill]; iexact H1
  isplitl [H2]; · iexact H2
  isplitl [H3]; · iexact H3
  isplitl [H4]; · iexact H4
  isplitl [H5]; · iexact H5
  isplitl [H6]
  · iexists (outC (xa m c t d0) (xb m c t d1) (iblk m c 2 t) (iblk m c 3 t))
    rw [Pipeline.Window.cut_fill, ← hC t d0 d1, Pipeline.Window.fill_cut]; iexact H6
  iexists (outD (xa m c t d0) (xb m c t d1) (iblk m c 4 t) (iblk m c 5 t))
  rw [Pipeline.Window.cut_fill, ← hD t d0 d1, Pipeline.Window.fill_cut]; iexact H7

end Cert.KernelIdeal.Hand

end
-- ==== Proof.IdealLaunch.lean ====
import proofs.«173869_g6244882448852_cont_9to1_m_469_22_alg».proof.Proof.IdealOblig
import proofs.«173869_g6244882448852_cont_9to1_m_469_22_alg».proof.Proof.Gen.KernelIdeal.Launch
import proofs.«173869_g6244882448852_cont_9to1_m_469_22_alg».proof.Proof.Gen.KernelIdeal.Points
import proofs.«173869_g6244882448852_cont_9to1_m_469_22_alg».proof.Proof.Gen.KernelIdeal.Skeleton
import Idealize.ShloMosaic.Lib.Pipeline.FrameSuffix
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (GC : (c : Dev nD) → Buf (Elt F) ((c : Thread nD τ).loc main_call0_v2_0))
  (GD : (c : Dev nD) → Buf (Elt F) ((c : Thread nD τ).loc main_call0_v2_1))
variable (fgt : Fin 8 → Bool)

/-! ## The launch -/

/-- No prefetched table: the one admissible contents. -/
abbrev adm : (p : Fin 1) → (pcfgs (F := F) p).Adm := fun p => (cfgs p).toPCfg_adm

/-- The launch element: every staging cell's owner at round 0 and a duty token for every transfer the pipeline issues. -/
def u₀ : UR sig nD τ := initOf (Pipeline.cells cfgs cellOf_inj) (Pipeline.launchToks cfgs cellOf_inj)

/-- The proof data read relationally, the windows `fgt` marks forgotten. -/
abbrev rdats (p : Fin 1) (c : Dev nD) : Pipeline.RDat τ (Elt F) Unit ℕ (UR sig nD τ) ℕ cfg0 c := (dats m GC GD p c).toRForget fgt

/-- What the buffers that bypass the region satisfy in a final memory: the two bias vectors as the region found them,
    the two results the transposes of contents the two result arrays may hold after the last write-back. -/
def QY (c : Dev nD) (s : MemSt nD τ sig (Elt F)) : Prop :=
  s.mem ((c : Thread nD τ).loc main_arg2) = V m c main_arg2
  ∧ s.mem ((c : Thread nD τ).loc main_arg4) = V m c main_arg4
  ∧ ∃ (FC : Buf (Elt F) ((c : Thread nD τ).loc main_call0_v2_0)) (FD : Buf (Elt F) ((c : Thread nD τ).loc main_call0_v2_1)),
      (rdats m GC GD fgt 0 c).ArrAt 6 cfg0.N FC ∧ (rdats m GC GD fgt 0 c).ArrAt 7 cfg0.N FD
      ∧ s.mem ((c : Thread nD τ).loc main_v0_0) = transpose S20000x81 [1, 0] FC transposes_S81x20000_S20000x81_1_0
      ∧ s.mem ((c : Thread nD τ).loc main_v0_1) = transpose S20000x320 [1, 0] FD transposes_S320x20000_S20000x320_1_0

/-- The same, held: what the two transposes leave of the buffers that bypass the region. -/
def Ztail (c : Dev nD) : sProp 𝕄 :=
  iprop((((c : Thread nD τ).loc main_arg2) ↦{fullShare} V m c main_arg2) ∗ (((c : Thread nD τ).loc main_arg4) ↦{fullShare} V m c main_arg4)
    ∗ ∃ (FC : Buf (Elt F) ((c : Thread nD τ).loc main_call0_v2_0)) (FD : Buf (Elt F) ((c : Thread nD τ).loc main_call0_v2_1)),
        ⌜(rdats m GC GD fgt 0 c).ArrAt 6 cfg0.N FC ∧ (rdats m GC GD fgt 0 c).ArrAt 7 cfg0.N FD⌝
        ∗ (((c : Thread nD τ).loc main_v0_0) ↦{fullShare} transpose S20000x81 [1, 0] FC transposes_S81x20000_S20000x81_1_0)
        ∗ (((c : Thread nD τ).loc main_v0_1) ↦{fullShare} transpose S20000x320 [1, 0] FD transposes_S320x20000_S20000x320_1_0))

/-- What a final memory satisfies: every array of the pipeline at contents the write-backs may have left, and `QY`. -/
def QC : PUnit × MemSt nD τ sig (Elt F) → Prop := fun r => ∀ c : Dev nD,
  (∀ w : Fin cfg0.W, (rdats m GC GD fgt 0 c).ArrAt w cfg0.N (r.2.mem ((cfg0.win w).arr.view.loc (c : Thread nD τ))))
  ∧ QY m GC GD fgt c r.2

/-- The proof data's arrays, window by window, as points-tos of the buffers behind them (generic in the window: each
    array is a whole buffer). -/
theorem arrays_eq_refs (c : Dev nD) :
    ((rdats m GC GD fgt 0 c).arrays (rdats m GC GD fgt 0 c).A : sProp 𝕄)
      = bigSep Finset.univ fun w : Fin 8 => (((c : Thread nD τ).loc (Pipeline.arrRef spec0 w)) ↦{(rdats m GC GD fgt 0 c).share w} V m c (Pipeline.arrRef spec0 w)) := by
  unfold Pipeline.RDat.arrays
  exact bigSep_congr fun w _ => by
    rw [(arr_whole0 w).set_eq_univ, show (rdats m GC GD fgt 0 c).A w = V m c (Pipeline.arrRef spec0 w) from A_eq m GC GD c w]

/-- The buffers behind the windows' arrays, as the launch hands them over, make the proof data's arrays: the array `x`,
    which two windows read, is split between them by halves. -/
theorem hsplit_ok (c : Dev nD) :
    (Pipeline.arrBufs (Ix := Unit) (Name := ℕ) (U := UR sig nD τ) (Lvl := ℕ) spec0 c (V m c) : sProp 𝕄)
      ⊢ (rdats m GC GD fgt 0 c).arrays (rdats m GC GD fgt 0 c).A := by
  have hl : (Finset.univ.image (Pipeline.arrRef spec0)) = ([main_arg0, main_arg1, main_call0_v0, main_arg3, main_call0_v1, main_call0_v2_0, main_call0_v2_1] : List (Ref sig .tc)).toFinset := by decide
  have harrs : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_call0_v0) ↦{fullShare} V m c main_call0_v0) ∗ (((c : Thread nD τ).loc main_arg3) ↦{fullShare} V m c main_arg3)
          ∗ (((c : Thread nD τ).loc main_call0_v1) ↦{fullShare} V m c main_call0_v1) ∗ (((c : Thread nD τ).loc main_call0_v2_0) ↦{fullShare} V m c main_call0_v2_0)
          ∗ (((c : Thread nD τ).loc main_call0_v2_1) ↦{fullShare} V m c main_call0_v2_1)) :=
    bigSep_eq_bigSepL_of_eq _ hl (by decide) _
  rw [harrs, arrays_eq_refs, bigSep_W0]
  rw [show Pipeline.arrRef spec0 (0 : Fin 8) = main_arg0 from rfl,
    show Pipeline.arrRef spec0 (2 : Fin 8) = main_arg1 from rfl, show Pipeline.arrRef spec0 (3 : Fin 8) = main_call0_v0 from rfl,
    show Pipeline.arrRef spec0 (4 : Fin 8) = main_arg3 from rfl, show Pipeline.arrRef spec0 (5 : Fin 8) = main_call0_v1 from rfl,
    show Pipeline.arrRef spec0 (6 : Fin 8) = main_call0_v2_0 from rfl, show Pipeline.arrRef spec0 (7 : Fin 8) = main_call0_v2_1 from rfl]
  rw [show (rdats m GC GD fgt 0 c).share (0 : Fin 8) = fullShare.left from rfl, show (rdats m GC GD fgt 0 c).share (1 : Fin 8) = fullShare.right from rfl,
    show (rdats m GC GD fgt 0 c).share (2 : Fin 8) = fullShare from rfl, show (rdats m GC GD fgt 0 c).share (3 : Fin 8) = fullShare from rfl,
    show (rdats m GC GD fgt 0 c).share (4 : Fin 8) = fullShare from rfl, show (rdats m GC GD fgt 0 c).share (5 : Fin 8) = fullShare from rfl,
    show (rdats m GC GD fgt 0 c).share (6 : Fin 8) = fullShare from rfl, show (rdats m GC GD fgt 0 c).share (7 : Fin 8) = fullShare from rfl]
  iintro ⟨H0, H1, H3, H4, H5, H6, H7⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H3]; · iexact H3
  isplitl [H4]; · iexact H4
  isplitl [H5]; · iexact H5
  isplitl [H6]; · iexact H6
  iexact H7

/-! ## The two transposes after the region -/

/-- The four buffers the two transposes touch. -/
def tailL : List (Ref sig .tc) := [main_call0_v2_0, main_call0_v2_1, main_v0_0, main_v0_1]
def tailS : Finset (DevRef τ sig) := (tailL.map (Proc.devRef (τ := τ) .tc)).toFinset

set_option backward.isDefEq.respectTransparency.types false in
/-- From the region's exit, holding the two result arrays at `FC`, `FD` and the two outputs at anything, the two
    transposes run and leave the outputs at the transposes of `FC`, `FD`. -/
theorem tail_run (c : Dev nD) (FC : Buf (Elt F) ((c : Thread nD τ).loc main_call0_v2_0)) (FD : Buf (Elt F) ((c : Thread nD τ).loc main_call0_v2_1))
    (K : PUnit → sProp 𝕄) :
    iprop(boundary (c.tc : Thread nD τ) ∗ (((c : Thread nD τ).loc main_call0_v2_0) ↦{fullShare} FC) ∗ (((c : Thread nD τ).loc main_call0_v2_1) ↦{fullShare} FD)
        ∗ (((c : Thread nD τ).loc main_v0_0) ↦{fullShare} V m c main_v0_0) ∗ (((c : Thread nD τ).loc main_v0_1) ↦{fullShare} V m c main_v0_1)
        ∗ (iprop(boundary (c.tc : Thread nD τ) ∗ (((c : Thread nD τ).loc main_call0_v2_0) ↦{fullShare} FC) ∗ (((c : Thread nD τ).loc main_call0_v2_1) ↦{fullShare} FD)
            ∗ (((c : Thread nD τ).loc main_v0_0) ↦{fullShare} transpose S20000x81 [1, 0] FC transposes_S81x20000_S20000x81_1_0)
            ∗ (((c : Thread nD τ).loc main_v0_1) ↦{fullShare} transpose S20000x320 [1, 0] FD transposes_S320x20000_S20000x320_1_0)) -∗ K ⟨⟩))
      ⊢ wp frame (wpE (Pipeline.defs (pcfgs (F := F)) defs₀) (Variants.lift Variants.none) (c.tc : Thread nD τ) none) Set.univ
          (Pipeline.chain ([hostOps1].map StableHlo.seq)) K := by
  classical
  let W0 : Valuation τ sig (Elt F) := StableHlo.after (List.flatten [hostOps0]) (fun b => m (c, b))
  let W : Valuation τ sig (Elt F) := Function.update (Function.update W0 (Proc.devRef .tc main_call0_v2_0) FC) (Proc.devRef .tc main_call0_v2_1) FD
  have hnd : (tailL.map (Proc.devRef (τ := τ) .tc)).Nodup := List.Nodup.map (Proc.devRef_injective _) (by decide)
  have hheld : ∀ W' : Valuation τ sig (Elt F), (StableHlo.held (c.tc : Thread nD τ) tailS W' : sProp 𝕄)
      = iprop((((c.tc : Thread nD τ).1, Proc.devRef .tc main_call0_v2_0) ↦{fullShare} W' (Proc.devRef .tc main_call0_v2_0))
          ∗ (((c.tc : Thread nD τ).1, Proc.devRef .tc main_call0_v2_1) ↦{fullShare} W' (Proc.devRef .tc main_call0_v2_1))
          ∗ (((c.tc : Thread nD τ).1, Proc.devRef .tc main_v0_0) ↦{fullShare} W' (Proc.devRef .tc main_v0_0))
          ∗ (((c.tc : Thread nD τ).1, Proc.devRef .tc main_v0_1) ↦{fullShare} W' (Proc.devRef .tc main_v0_1))) :=
    fun W' => bigSep_eq_bigSepL _ hnd _
  have w6 : W (Proc.devRef .tc main_call0_v2_0) = FC := by
    show Function.update (Function.update W0 _ FC) _ FD _ = FC
    rw [Function.update_of_ne (StableHlo.devRef_ne_of_ne (by decide)), Function.update_self]
  have w7 : W (Proc.devRef .tc main_call0_v2_1) = FD := by
    show Function.update (Function.update W0 _ FC) _ FD _ = FD
    rw [Function.update_self]
  have w0 : W (Proc.devRef .tc main_v0_0) = V m c main_v0_0 := by
    show Function.update (Function.update W0 _ FC) _ FD _ = _
    rw [Function.update_of_ne (StableHlo.devRef_ne_of_ne (by decide)), Function.update_of_ne (StableHlo.devRef_ne_of_ne (by decide))]
  have w1 : W (Proc.devRef .tc main_v0_1) = V m c main_v0_1 := by
    show Function.update (Function.update W0 _ FC) _ FD _ = _
    rw [Function.update_of_ne (StableHlo.devRef_ne_of_ne (by decide)), Function.update_of_ne (StableHlo.devRef_ne_of_ne (by decide))]
  have a6 : StableHlo.after hostOps1 W (Proc.devRef .tc main_call0_v2_0) = FC := by
    unfold hostOps1; after_results; exact w6
  have a7 : StableHlo.after hostOps1 W (Proc.devRef .tc main_call0_v2_1) = FD := by
    unfold hostOps1; after_results; exact w7
  have a0 : StableHlo.after hostOps1 W (Proc.devRef .tc main_v0_0) = transpose S20000x81 [1, 0] FC transposes_S81x20000_S20000x81_1_0 := by
    unfold hostOps1; after_results; rw [w6]; rfl
  have a1 : StableHlo.after hostOps1 W (Proc.devRef .tc main_v0_1) = transpose S20000x320 [1, 0] FD transposes_S320x20000_S20000x320_1_0 := by
    unfold hostOps1; after_results; rw [w7]; rfl
  have hS : ∀ op ∈ (hostOps1 : List (HloOp τ sig (Elt F))), op.bufs ⊆ tailS := by
    intro op hop
    simp only [hostOps1, List.mem_cons, List.mem_nil_iff, _root_.or_false] at hop
    rcases hop with rfl | rfl <;> intro b hb <;>
      (simp only [StableHlo.TRef.unary, StableHlo.unary_bufs, Finset.mem_insert, Finset.mem_singleton] at hb
       rcases hb with rfl | rfl <;> exact List.mem_toFinset.mpr (List.mem_map.mpr ⟨_, by decide, rfl⟩))
  have hf : ∀ op ∈ (hostOps1 : List (HloOp τ sig (Elt F))), op.fresh = ∅ := by
    intro _ h; (repeat (cases h with | head => rfl | tail _ h => ?_)); exact nomatch h
  simp only [List.map_cons, List.map_nil, Pipeline.chain_cons, Pipeline.chain_nil]
  iintro ⟨Hbd, A6, A7, Z0, Z1, Hk⟩
  iapply (StableHlo.wp_seq (Variants.lift Variants.none) none Set.univ c tailS _ hostOps1 hS hf W) $$ [Hbd A6 A7 Z0 Z1]
  · isplitl [Hbd]; · iexact Hbd
    rw [hheld W, w6, w7, w0, w1]
    isplitl [A6]; · iexact A6
    isplitl [A7]; · iexact A7
    isplitl [Z0]; · iexact Z0
    iexact Z1
  rw [hheld (StableHlo.after hostOps1 W), a6, a7, a0, a1]
  iintro ⟨Hbd, A6, A7, Z0, Z1⟩
  rw [show (pure ⟨⟩ : Prog _ PUnit) = Prog.ret ⟨⟩ from rfl, wp_ret]
  imodintro
  iapply Hk
  isplitl [Hbd]; · iexact Hbd
  isplitl [A6]; · iexact A6
  isplitl [A7]; · iexact A7
  isplitl [Z0]; · iexact Z0
  iexact Z1

/-- The arrays after the write-backs, window by window, likewise. -/
theorem arraysAt_eq_refs (c : Dev nD) (n : Nat) :
    ((rdats m GC GD fgt 0 c).arraysAt n : sProp 𝕄)
      = bigSep Finset.univ fun w : Fin 8 => iprop(∃ X : Buf (Elt F) ((c : Thread nD τ).loc (Pipeline.arrRef spec0 w)),
          ⌜(rdats m GC GD fgt 0 c).ArrAt w n X⌝ ∗ (((c : Thread nD τ).loc (Pipeline.arrRef spec0 w)) ↦{(rdats m GC GD fgt 0 c).share w} X)) := by
  unfold Pipeline.RDat.arraysAt
  exact bigSep_congr fun w _ => by rw [(arr_whole0 w).set_eq_univ]

/-- After the region: the two transposes run within the two result arrays (read) and the two outputs (written), and leave
    what `Ztail` says. -/
theorem htail_ok (c : Dev nD) (Q' : PUnit → sProp 𝕄) :
    iprop((iprop((rdats m GC GD fgt 0 c).arraysAt cfg0.N ∗ Ztail m GC GD fgt c) -∗ Q' ⟨⟩)
        ∗ boundary (c.tc : Thread nD τ) ∗ (rdats m GC GD fgt 0 c).arraysAt cfg0.N ∗ Pipeline.unscopedRest spec0 c (V m c))
      ⊢ wp frame (wpE (Pipeline.defs (pcfgs (F := F)) defs₀) (Variants.lift Variants.none) (c.tc : Thread nD τ) none) Set.univ
          (Pipeline.chain ([hostOps1].map StableHlo.seq)) Q' := by
  rw [arraysAt_eq_refs, bigSep_W0, unscopedRest0_eq]
  rw [show (rdats m GC GD fgt 0 c).share (6 : Fin 8) = fullShare from rfl, show (rdats m GC GD fgt 0 c).share (7 : Fin 8) = fullShare from rfl]
  unfold Ztail
  iintro ⟨Hk, Hbd, ⟨A0, A1, A2, A3, A4, A5, ⟨%FC, %hFC, A6⟩, ⟨%FD, %hFD, A7⟩⟩, ⟨Z2, Z4, Zo0, Zo1⟩⟩
  iapply (tail_run m c FC FD Q')
  isplitl [Hbd]; · iexact Hbd
  isplitl [A6]; · iexact A6
  isplitl [A7]; · iexact A7
  isplitl [Zo0]; · iexact Zo0
  isplitl [Zo1]; · iexact Zo1
  iintro ⟨-, A6, A7, Zo0, Zo1⟩
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]
    · iexists FC; isplitr; · ipureintro; exact hFC
      iexact A6
    iexists FD; isplitr; · ipureintro; exact hFD
    iexact A7
  isplitl [Z2]; · iexact Z2
  isplitl [Z4]; · iexact Z4
  iexists FC; iexists FD
  isplitr; · ipureintro; exact ⟨hFC, hFD⟩
  isplitl [Zo0]; · iexact Zo0
  iexact Zo1

/-- The buffers that bypass the region, read against a final state. -/
theorem hY_ok (c : Dev nD) (s' : Phys nD τ sig (Elt F)) :
    iprop((∃ r, prngReg c r) ∗ Ztail m GC GD fgt c ∗ SI s') ⊢ |={Set.univ}=> iprop(⌜QY m GC GD fgt c s'.mem⌝ ∗ SI s') := by
  unfold Ztail
  iintro ⟨-, ⟨H2, H4, ⟨%FC, %FD, %hF, H0, H1⟩⟩, HSI⟩
  icombine HSI H2 gives %h2
  icombine HSI H4 gives %h4
  icombine HSI H0 gives %h0
  icombine HSI H1 gives %h1
  imodintro
  isplitr
  · ipureintro
    exact ⟨Buf.eq_of_forall_mem_univ h2, Buf.eq_of_forall_mem_univ h4, FC, FD, hF.1, hF.2, Buf.eq_of_forall_mem_univ h0, Buf.eq_of_forall_mem_univ h1⟩
  iexact HSI

/-! ## The run -/

set_option backward.isDefEq.respectTransparency.types false in
/-- At the compiled mesh, for any float values, from any memory with zero counters: every weakly fair execution of @main
    on the TensorCores terminates, and every final memory satisfies `QC`. -/
theorem run_main (hbody : ∀ c, (rdats m GC GD fgt 0 c).BodyObligation (defs₀ (F := F)) Variants.none () Set.univ) :
    θ_run defs (onTc (τ := τ) (main (F := F))) (s₀ m ρ) (QC m GC GD fgt) :=
  Pipeline.RDat.θ_run_region_pf_tail (pcfgs (F := F)) adm (rdats m GC GD fgt) () cellOf_inj (0 : Fin 1) winFacts₀0 (Pipeline.OwnSemFacts.none _) (Pipeline.PreFacts.none _) EP defs₀ Variants.none m ρ main
    (fun _ => Pipeline.chain ([hostOps1].map StableHlo.seq))
    (hbody := hbody) (hne := block_pos0) (harr := arr_whole0) (hstage := stage_whole0) (howed := fun _ _ => rfl)
    (G := fun _ => iprop(emp)) (u₀ := u₀)
    (hu₀ := by
      have h : (ownU (u₀ : UR sig nD τ) : sProp 𝕄) ⊢ BI.own (EP (initOf (Pipeline.cells (Pipeline.pin (pcfgs (F := F)) adm) cellOf_inj) (Pipeline.launchToks (Pipeline.pin (pcfgs (F := F)) adm) cellOf_inj))) := BI.Entails.refl _
      iintro Hu
      imodintro
      isplitl [Hu]
      · iapply h; iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit_ok m GC GD fgt)
    (hpf := fun _ k => k.elim0)
    (X := fun c => prngReg c (ρ c)) (Y := fun c => iprop(∃ r, prngReg c r))
    (Z := fun c => Pipeline.unscopedRest spec0 c (V m c))
    (Z' := Ztail m GC GD fgt)
    (hX := fun c => by
      rw [Pipeline.unscopedRestP_none]
      iintro ⟨HR, -, -, -, Hp, -⟩
      imodintro
      isplitl [Hp]; · iexact Hp
      iexact HR)
    (hin := fun c => by
      show _ ⊢ Pipeline.ΦA spec0 c
      unfold Pipeline.ΦA
      iintro ⟨Hp, -, Hr⟩
      isplitl [Hr]; · iexact Hr
      iexists _; iexact Hp)
    (hout := fun c => by
      show Pipeline.ΦA spec0 c ⊢ _
      unfold Pipeline.ΦA
      rw [Pipeline.ownSems0_none]
      iintro ⟨Hr, Hp⟩
      isplitl [Hp]; · iexact Hp
      isplitr; · iempintro
      iexact Hr)
    (htail := htail_ok m GC GD fgt)
    (QY := QY m GC GD fgt)
    (hY := hY_ok m GC GD fgt)
    (hQ := fun s h c => ⟨(h c).1, (h c).2.2⟩)

/-! ## What the region finds: the arguments as launched, the bias rows reshaped -/

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
/-- The class bias as the region finds it: the vector reshaped to a row [1, 81]; the box bias likewise [1, 320]. -/
theorem V_biasC (c : Dev nD) : (V m c main_call0_v0 : S1x81.Idx → Elt F .f32) = shapeCast S1x81 (m ((c : Thread nD τ).loc main_arg2)) shapeCasts_S81_S1x81 := by
  show StableHlo.after hostOps0 (fun b => m (c, b)) (Proc.devRef .tc main_call0_v0) = _
  after_results; rfl
theorem V_biasD (c : Dev nD) : (V m c main_call0_v1 : S1x320.Idx → Elt F .f32) = shapeCast S1x320 (m ((c : Thread nD τ).loc main_arg4)) shapeCasts_S320_S1x320 := by
  show StableHlo.after hostOps0 (fun b => m (c, b)) (Proc.devRef .tc main_call0_v1) = _
  after_results; rfl

/-! ## The frame -/

/-- The program runs to the end, faults nowhere and leaves its five arguments as launched (at any float values): the
    run with the two result windows forgotten; an input window's array is never written, and the two bias vectors
    bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_)
    (run_main m ρ (fun _ _ => z0) (fun _ _ => z0) fgtOut (fun c => (body_forget m (fun _ _ => z0) (fun _ _ => z0) c).toRForget))
  obtain ⟨hw, h2, h4, -⟩ := h c
  have a0 := hw 0; rw [Pipeline.RDat.ArrAt_in _ 0 rfl] at a0
  have a1 := hw 2; rw [Pipeline.RDat.ArrAt_in _ 2 rfl] at a1
  have a3 := hw 4; rw [Pipeline.RDat.ArrAt_in _ 4 rfl] at a3
  exact ⟨a0.trans ((A_eq m (fun _ _ => z0) (fun _ _ => z0) c 0).trans (V_arg0 m c)), a1.trans ((A_eq m (fun _ _ => z0) (fun _ _ => z0) c 2).trans (V_arg1 m c)), h2.trans (V_arg2 m c),
    a3.trans ((A_eq m (fun _ _ => z0) (fun _ _ => z0) c 4).trans (V_arg3 m c)), h4.trans (V_arg4 m c)⟩

end Cert.KernelIdeal.Hand

end
-- ==== Proof.IdealValue.lean ====
import proofs.«173869_g6244882448852_cont_9to1_m_469_22_alg».proof.Proof.IdealLaunch
import proofs.«173869_g6244882448852_cont_9to1_m_469_22_alg».proof.Proof.Gen.KernelIdeal.Launch
import proofs.«173869_g6244882448852_cont_9to1_m_469_22_alg».proof.Proof.Gen.KernelIdeal.Points
import proofs.«173869_g6244882448852_cont_9to1_m_469_22_alg».proof.Proof.Gen.KernelIdeal.Skeleton
import Idealize.ShloMosaic.Lib.Pipeline.FrameSuffix
import Idealize.ShloMosaic.Lib.Pipeline.Value
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (GC : (c : Dev nD) → Buf (Elt F) ((c : Thread nD τ).loc main_call0_v2_0))
  (GD : (c : Dev nD) → Buf (Elt F) ((c : Thread nD τ).loc main_call0_v2_1))

/-! ## The result arrays after the run -/

/-- Each write-back writes the claimed array's block, and the blocks cover the array: the array ends holding the claim. -/
theorem arrAtC (c : Dev nD)
    (hcov : ∀ i : ((cfg0.win 6).arr.view.loc (c.tc : Thread nD τ)).2.ty.Idx, ∃ t : Fin cfg0.N, (cfg0.win 6).flush t = true ∧ i ∈ ((cfg0.win 6).blk t).view.set) :
    (dats m GC GD 0 c).arrAt 6 cfg0.N = GC c :=
  (dats m GC GD 0 c).arrAt_eq_of_cover 6 (GC c) (fun t _ => by
    show (cfg0.win 6).cut (cfg0.grid.coords t) ((dats m GC GD 0 c).after 6 t) = _
    rw [after6]; exact Pipeline.Window.cut_fill _ _ _ _) hcov
theorem arrAtD (c : Dev nD)
    (hcov : ∀ i : ((cfg0.win 7).arr.view.loc (c.tc : Thread nD τ)).2.ty.Idx, ∃ t : Fin cfg0.N, (cfg0.win 7).flush t = true ∧ i ∈ ((cfg0.win 7).blk t).view.set) :
    (dats m GC GD 0 c).arrAt 7 cfg0.N = GD c :=
  (dats m GC GD 0 c).arrAt_eq_of_cover 7 (GD c) (fun t _ => by
    show (cfg0.win 7).cut (cfg0.grid.coords t) ((dats m GC GD 0 c).after 7 t) = _
    rw [after7]; exact Pipeline.Window.cut_fill _ _ _ _) hcov

/-- THE VALUE RUN. When, on the part of each result block inside its array, the body's block is the claimed array's
    block (`hC`, `hD`), and the result blocks cover their arrays, the program ends with its two results the transposes
    of the claimed arrays and its arguments unchanged. -/
theorem value_run
    (hC : ∀ c t d0 d1, win0_6.cut (grid0.coords t) (outC (xa m c t d0) (xb m c t d1) (iblk m c 2 t) (iblk m c 3 t)) = (win0_6.blk t).view.read (Elt F) (GC c))
    (hD : ∀ c t d0 d1, win0_7.cut (grid0.coords t) (outD (xa m c t d0) (xb m c t d1) (iblk m c 4 t) (iblk m c 5 t)) = (win0_7.blk t).view.read (Elt F) (GD c))
    (hcovC : ∀ (c : Dev nD) (i : ((cfg0.win 6).arr.view.loc (c.tc : Thread nD τ)).2.ty.Idx), ∃ t : Fin cfg0.N, (cfg0.win 6).flush t = true ∧ i ∈ ((cfg0.win 6).blk t).view.set)
    (hcovD : ∀ (c : Dev nD) (i : ((cfg0.win 7).arr.view.loc (c.tc : Thread nD τ)).2.ty.Idx), ∃ t : Fin cfg0.N, (cfg0.win 7).flush t = true ∧ i ∈ ((cfg0.win 7).blk t).view.set) :
    θ_run defs (onTc (τ := τ) (main (F := F))) ⟨m, fun _ => 0, ρ⟩ (fun r => ∀ c : Dev nD,
      r.2.mem ((c.tc : Thread nD τ).loc main_v0_0) = transpose S20000x81 [1, 0] (GC c) transposes_S81x20000_S20000x81_1_0
      ∧ r.2.mem ((c.tc : Thread nD τ).loc main_v0_1) = transpose S20000x320 [1, 0] (GD c) transposes_S320x20000_S20000x320_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_)
    (run_main m ρ GC GD (fun _ => false) (fun c => (body_named m GC GD c (hC c) (hD c)).toRForget))
  obtain ⟨hw, h2, h4, FC, FD, hFC, hFD, h0, h1⟩ := h c
  have eC : FC = GC c :=
    (((dats m GC GD 0 c).toRForget_arrAt_iff (fgt := fun _ => false) (w := 6) rfl cfg0.N FC).mp hFC).trans (arrAtC m GC GD c (hcovC c))
  have eD : FD = GD c :=
    (((dats m GC GD 0 c).toRForget_arrAt_iff (fgt := fun _ => false) (w := 7) rfl cfg0.N FD).mp hFD).trans (arrAtD m GC GD c (hcovD c))
  subst eC eD
  have a0 := hw 0; rw [Pipeline.RDat.ArrAt_in _ 0 rfl] at a0
  have a1 := hw 2; rw [Pipeline.RDat.ArrAt_in _ 2 rfl] at a1
  have a3 := hw 4; rw [Pipeline.RDat.ArrAt_in _ 4 rfl] at a3
  exact ⟨h0, h1, a0.trans ((A_eq m GC GD c 0).trans (V_arg0 m c)), a1.trans ((A_eq m GC GD c 2).trans (V_arg1 m c)), h2.trans (V_arg2 m c),
    a3.trans ((A_eq m GC GD c 4).trans (V_arg3 m c)), h4.trans (V_arg4 m c)⟩

end Cert.KernelIdeal.Hand

end
-- ==== Proof.Spec.lean ====
/-
  The mathematics of the certificate, with no program in sight: a linear layer and its transpose, over the extended reals.

  For weights `W : [A, 1024]`, inputs `x : [20000, 1024]` and a bias `b : [A]`:
  * `linT W x b` is the layer laid out with the output feature first: entry `(c, n)` is `(∑ k, W[c,k] · x[n,k]) + b[c]`;
  * `lin W x b` is the layer laid out with the row first: entry `(n, c)` is `(∑ k, x[n,k] · W[c,k]) + b[c]`.
  Swapping the two axes of `linT` gives `lin`: the entry read is the same sum with each product's factors exchanged,
  and multiplication of extended reals is commutative (no entry need be finite).
-/
import Idealize.ShloMosaic.PureOps.Ideal
import Idealize.ShloMosaic.Lib.ValueIdx
import Idealize.ShloMosaic.Lib.Pipeline.Value

noncomputable section

open scoped BigOperators

namespace Cert.Spec

open Idealize.ShloMosaic Idealize.ShloMosaic.ValueIdx

variable {A : Nat}

/-- The layer with the output feature first: entry `(c, n)` is `(∑ k, W[c,k] · x[n,k]) + b[c]`. -/
def linT (W : (⟨2, ![A, 1024]⟩ : Shape).Idx → EReal) (x : (⟨2, ![20000, 1024]⟩ : Shape).Idx → EReal)
    (b : (⟨1, ![A]⟩ : Shape).Idx → EReal) : (⟨2, ![A, 20000]⟩ : Shape).Idx → EReal :=
  fun i => (∑ k : Fin 1024, W (ix2 (i 0 : Fin A) k) * x (ix2 (i 1 : Fin 20000) k)) + b (ix1 (i 0 : Fin A))

/-- The layer with the row first: entry `(n, c)` is `(∑ k, x[n,k] · W[c,k]) + b[c]`. -/
def lin (W : (⟨2, ![A, 1024]⟩ : Shape).Idx → EReal) (x : (⟨2, ![20000, 1024]⟩ : Shape).Idx → EReal)
    (b : (⟨1, ![A]⟩ : Shape).Idx → EReal) : (⟨2, ![20000, A]⟩ : Shape).Idx → EReal :=
  fun i => (∑ k : Fin 1024, x (ix2 (i 0 : Fin 20000) k) * W (ix2 (i 1 : Fin A) k)) + b (ix1 (i 1 : Fin A))

/-- `linT` at coordinates. -/
theorem linT_apply (W : (⟨2, ![A, 1024]⟩ : Shape).Idx → EReal) (x : (⟨2, ![20000, 1024]⟩ : Shape).Idx → EReal)
    (b : (⟨1, ![A]⟩ : Shape).Idx → EReal) (c : Fin A) (n : Fin 20000) :
    linT W x b (ix2 c n) = (∑ k : Fin 1024, W (ix2 c k) * x (ix2 n k)) + b (ix1 c) := rfl

/-- `lin` at coordinates. -/
theorem lin_apply (W : (⟨2, ![A, 1024]⟩ : Shape).Idx → EReal) (x : (⟨2, ![20000, 1024]⟩ : Shape).Idx → EReal)
    (b : (⟨1, ![A]⟩ : Shape).Idx → EReal) (n : Fin 20000) (c : Fin A) :
    lin W x b (ix2 n c) = (∑ k : Fin 1024, x (ix2 n k) * W (ix2 c k)) + b (ix1 c) := rfl

/-- Swapping the two axes of `linT` gives `lin`: the same sums, each product's factors exchanged. -/
theorem transpose_linT (W : (⟨2, ![A, 1024]⟩ : Shape).Idx → EReal) (x : (⟨2, ![20000, 1024]⟩ : Shape).Idx → EReal)
    (b : (⟨1, ![A]⟩ : Shape).Idx → EReal)
    (h : (⟨2, ![A, 20000]⟩ : Shape).Transposes [1, 0] ⟨2, ![20000, A]⟩) :
    transpose ⟨2, ![20000, A]⟩ [1, 0] (linT W x b) h = lin W x b := by
  funext i
  rw [transpose_apply [1, 0] (linT W x b) h i (ix2 (i 1 : Fin A) (i 0 : Fin 20000)) (fun a => match a with
    | ⟨0, _⟩ => rfl
    | ⟨1, _⟩ => rfl)]
  show (∑ k : Fin 1024, W (ix2 (i 1 : Fin A) k) * x (ix2 (i 0 : Fin 20000) k)) + b (ix1 (i 1 : Fin A)) = _
  unfold lin
  exact congrArg (· + b (ix1 (i 1 : Fin A))) (Finset.sum_congr rfl fun k _ => mul_comm _ _)

end Cert.Spec

end
-- ==== Proof.PayloadIdeal.lean ====
/-
  The kernel body's arithmetic at one entry of a block, over the extended reals.

  The body multiplies the weights `W : [A, 1024]` by a block of 1280 rows `x : [1280, 1024]`, contracting the second axis
  of both, into a zero accumulator, and adds the bias row `b : [1, A]` turned into a column and repeated along the 1280
  columns. At entry `(p, q)` that is `(∑ k, W[p,k] · x[q,k]) + b[0,p]`: the product is the sum over the one contraction
  coordinate (the contraction index re-indexed by its coordinate), the column of biases reads the row at `p`.
  Once for `A = 81` and once for `A = 320`; each is used for both blocks of rows a grid step handles.
-/
import proofs.«173869_g6244882448852_cont_9to1_m_469_22_alg».proof.Proof.Spec
import proofs.«173869_g6244882448852_cont_9to1_m_469_22_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Bridge.Payload

open Cert.KernelIdeal Cert.KernelIdeal.Gen Idealize.ShloMosaic Idealize.ShloMosaic.ValueIdx Idealize.SL.Sem

/-! ## 81 output features -/

/-- The left operand's row coordinate at an output entry is the entry's first coordinate. -/
theorem lhs81_row (i : S81x1280.Idx) (q : dot_S81x1024_S1280x1024_S81x1280_1_1_0_0_n_n.contr.Idx) :
    (dot_S81x1024_S1280x1024_S81x1280_1_1_0_0_n_n.lhsIdx i q 0).val = (i 0).val := by
  unfold DotDims.lhsIdx
  rw [dif_neg (show ¬(0 : Fin S81x1024.rank) ∈ dot_S81x1024_S1280x1024_S81x1280_1_1_0_0_n_n.lhsBatch by decide), dif_pos (show (0 : Fin S81x1024.rank) ∈ dot_S81x1024_S1280x1024_S81x1280_1_1_0_0_n_n.lhsNonContracting by decide)]
  rfl
/-- The left operand's column coordinate is the contraction position. -/
theorem lhs81_col (i : S81x1280.Idx) (q : dot_S81x1024_S1280x1024_S81x1280_1_1_0_0_n_n.contr.Idx) :
    (dot_S81x1024_S1280x1024_S81x1280_1_1_0_0_n_n.lhsIdx i q 1).val = (q ⟨0, by decide⟩).val :=
  dot_S81x1024_S1280x1024_S81x1280_1_1_0_0_n_n.lhsIdx_val_of_single rfl i q
/-- The right operand's row coordinate at an output entry is the entry's second coordinate. -/
theorem rhs81_row (i : S81x1280.Idx) (q : dot_S81x1024_S1280x1024_S81x1280_1_1_0_0_n_n.contr.Idx) :
    (dot_S81x1024_S1280x1024_S81x1280_1_1_0_0_n_n.rhsIdx i q 0).val = (i 1).val := by
  unfold DotDims.rhsIdx
  rw [dif_neg (show ¬(0 : Fin S1280x1024.rank) ∈ dot_S81x1024_S1280x1024_S81x1280_1_1_0_0_n_n.rhsBatch by decide), dif_pos (show (0 : Fin S1280x1024.rank) ∈ dot_S81x1024_S1280x1024_S81x1280_1_1_0_0_n_n.rhsNonContracting by decide)]
  rfl
/-- The right operand's column coordinate is the contraction position. -/
theorem rhs81_col (i : S81x1280.Idx) (q : dot_S81x1024_S1280x1024_S81x1280_1_1_0_0_n_n.contr.Idx) :
    (dot_S81x1024_S1280x1024_S81x1280_1_1_0_0_n_n.rhsIdx i q 1).val = (q ⟨0, by decide⟩).val :=
  dot_S81x1024_S1280x1024_S81x1280_1_1_0_0_n_n.rhsIdx_val_of_single rfl i q

/-- The product of the weights with the transposed block of rows, accumulated from zero, at entry `(p, q)`:
    `∑ k, W[p,k] · x[q,k]`. -/
theorem matmul81_apply (W : FVec Ideal S81x1024 .f32) (x : FVec Ideal S1280x1024 .f32) (p : Fin 81) (q : Fin 1280) :
    matmul (F := Ideal) dot_S81x1024_S1280x1024_S81x1280_1_1_0_0_n_n none W x (constant (F := Ideal) S81x1280 .f32 0x00000000#32) (ix2 p q)
      = ∑ k : Fin 1024, W (ix2 p k) * x (ix2 q k) := by
  simp only [matmul]
  rw [Ideal.matmul_constant_zero_apply, ← Equiv.sum_comp (contrEquiv1 dot_S81x1024_S1280x1024_S81x1280_1_1_0_0_n_n 1024 rfl rfl).symm]
  refine Finset.sum_congr rfl fun k _ => ?_
  have hk := contrEquiv1_symm_val dot_S81x1024_S1280x1024_S81x1280_1_1_0_0_n_n 1024 rfl rfl k
  have el : dot_S81x1024_S1280x1024_S81x1280_1_1_0_0_n_n.lhsIdx (ix2 p q) ((contrEquiv1 dot_S81x1024_S1280x1024_S81x1280_1_1_0_0_n_n 1024 rfl rfl).symm k) = ix2 p k := funext fun a => Fin.ext (by
    match a with
    | ⟨0, _⟩ => exact lhs81_row _ _
    | ⟨1, _⟩ => exact (lhs81_col _ _).trans hk)
  have er : dot_S81x1024_S1280x1024_S81x1280_1_1_0_0_n_n.rhsIdx (ix2 p q) ((contrEquiv1 dot_S81x1024_S1280x1024_S81x1280_1_1_0_0_n_n 1024 rfl rfl).symm k) = ix2 q k := funext fun a => Fin.ext (by
    match a with
    | ⟨0, _⟩ => exact rhs81_row _ _
    | ⟨1, _⟩ => exact (rhs81_col _ _).trans hk)
  rw [el, er]

/-- The bias row, turned into a column and laid along every column of the block, at entry `(p, q)`: `b[0,p]`. -/
theorem biasCol81_apply (b : Vec Ideal S1x81 .f32) (p : Fin 81) (q : Fin 1280) :
    broadcastTo S81x1280 (k0_pay1 (F := Ideal) b) broadcasts_S81x1_S81x1280 (ix2 p q) = b (ix2 0 p) := by
  rw [broadcastTo_apply (k0_pay1 (F := Ideal) b) broadcasts_S81x1_S81x1280 (ix2 p q) (ix2 p (0 : Fin 1)) (fun a => match a with
    | ⟨0, _⟩ => by show p.val = if (81 : Nat) = 1 then 0 else p.val; rw [if_neg (by decide)]
    | ⟨1, _⟩ => by show 0 = if (1 : Nat) = 1 then 0 else q.val; rw [if_pos rfl])]
  unfold k0_pay1
  rw [transpose_apply [1, 0] (shapeCast S1x81 b shapeCasts_S1x81_S1x81) transposes_S1x81_p1_0_S81x1 (ix2 p (0 : Fin 1)) (ix2 (0 : Fin 1) p) (fun a => match a with
    | ⟨0, _⟩ => rfl
    | ⟨1, _⟩ => rfl), shapeCast_self]

/-- THE PAYLOAD AT AN ENTRY: the block the body stores is, at `(p, q)`, `(∑ k, W[p,k] · x[q,k]) + b[0,p]`. -/
theorem k0_pay3_apply (x0 : Vec Ideal S1280x1024 .f32) (v2 : Vec Ideal S1x81 .f32) (v8 : Vec Ideal S81x1024 .f32) (p : Fin 81) (q : Fin 1280) :
    k0_pay3 (F := Ideal) x0 v2 v8 (ix2 p q) = (∑ k : Fin 1024, v8 (ix2 p k) * x0 (ix2 q k)) + v2 (ix2 0 p) := by
  unfold k0_pay3
  rw [addf_apply, matmul81_apply, biasCol81_apply]

/-- The second block of rows goes through the same arithmetic. -/
theorem k0_pay5_eq (x1 : Vec Ideal S1280x1024 .f32) (v2 : Vec Ideal S1x81 .f32) (v18 : Vec Ideal S81x1024 .f32) :
    k0_pay5 (F := Ideal) x1 v2 v18 = k0_pay3 (F := Ideal) x1 v2 v18 := rfl

theorem k0_pay5_apply (x1 : Vec Ideal S1280x1024 .f32) (v2 : Vec Ideal S1x81 .f32) (v18 : Vec Ideal S81x1024 .f32) (p : Fin 81) (q : Fin 1280) :
    k0_pay5 (F := Ideal) x1 v2 v18 (ix2 p q) = (∑ k : Fin 1024, v18 (ix2 p k) * x1 (ix2 q k)) + v2 (ix2 0 p) :=
  k0_pay3_apply x1 v2 v18 p q

/-! ## 320 output features -/

/-- The left operand's row coordinate at an output entry is the entry's first coordinate. -/
theorem lhs320_row (i : S320x1280.Idx) (q : dot_S320x1024_S1280x1024_S320x1280_1_1_0_0_n_n.contr.Idx) :
    (dot_S320x1024_S1280x1024_S320x1280_1_1_0_0_n_n.lhsIdx i q 0).val = (i 0).val := by
  unfold DotDims.lhsIdx
  rw [dif_neg (show ¬(0 : Fin S320x1024.rank) ∈ dot_S320x1024_S1280x1024_S320x1280_1_1_0_0_n_n.lhsBatch by decide), dif_pos (show (0 : Fin S320x1024.rank) ∈ dot_S320x1024_S1280x1024_S320x1280_1_1_0_0_n_n.lhsNonContracting by decide)]
  rfl
/-- The left operand's column coordinate is the contraction position. -/
theorem lhs320_col (i : S320x1280.Idx) (q : dot_S320x1024_S1280x1024_S320x1280_1_1_0_0_n_n.contr.Idx) :
    (dot_S320x1024_S1280x1024_S320x1280_1_1_0_0_n_n.lhsIdx i q 1).val = (q ⟨0, by decide⟩).val :=
  dot_S320x1024_S1280x1024_S320x1280_1_1_0_0_n_n.lhsIdx_val_of_single rfl i q
/-- The right operand's row coordinate at an output entry is the entry's second coordinate. -/
theorem rhs320_row (i : S320x1280.Idx) (q : dot_S320x1024_S1280x1024_S320x1280_1_1_0_0_n_n.contr.Idx) :
    (dot_S320x1024_S1280x1024_S320x1280_1_1_0_0_n_n.rhsIdx i q 0).val = (i 1).val := by
  unfold DotDims.rhsIdx
  rw [dif_neg (show ¬(0 : Fin S1280x1024.rank) ∈ dot_S320x1024_S1280x1024_S320x1280_1_1_0_0_n_n.rhsBatch by decide), dif_pos (show (0 : Fin S1280x1024.rank) ∈ dot_S320x1024_S1280x1024_S320x1280_1_1_0_0_n_n.rhsNonContracting by decide)]
  rfl
/-- The right operand's column coordinate is the contraction position. -/
theorem rhs320_col (i : S320x1280.Idx) (q : dot_S320x1024_S1280x1024_S320x1280_1_1_0_0_n_n.contr.Idx) :
    (dot_S320x1024_S1280x1024_S320x1280_1_1_0_0_n_n.rhsIdx i q 1).val = (q ⟨0, by decide⟩).val :=
  dot_S320x1024_S1280x1024_S320x1280_1_1_0_0_n_n.rhsIdx_val_of_single rfl i q

/-- The product of the weights with the transposed block of rows, accumulated from zero, at entry `(p, q)`:
    `∑ k, W[p,k] · x[q,k]`. -/
theorem matmul320_apply (W : FVec Ideal S320x1024 .f32) (x : FVec Ideal S1280x1024 .f32) (p : Fin 320) (q : Fin 1280) :
    matmul (F := Ideal) dot_S320x1024_S1280x1024_S320x1280_1_1_0_0_n_n none W x (constant (F := Ideal) S320x1280 .f32 0x00000000#32) (ix2 p q)
      = ∑ k : Fin 1024, W (ix2 p k) * x (ix2 q k) := by
  simp only [matmul]
  rw [Ideal.matmul_constant_zero_apply, ← Equiv.sum_comp (contrEquiv1 dot_S320x1024_S1280x1024_S320x1280_1_1_0_0_n_n 1024 rfl rfl).symm]
  refine Finset.sum_congr rfl fun k _ => ?_
  have hk := contrEquiv1_symm_val dot_S320x1024_S1280x1024_S320x1280_1_1_0_0_n_n 1024 rfl rfl k
  have el : dot_S320x1024_S1280x1024_S320x1280_1_1_0_0_n_n.lhsIdx (ix2 p q) ((contrEquiv1 dot_S320x1024_S1280x1024_S320x1280_1_1_0_0_n_n 1024 rfl rfl).symm k) = ix2 p k := funext fun a => Fin.ext (by
    match a with
    | ⟨0, _⟩ => exact lhs320_row _ _
    | ⟨1, _⟩ => exact (lhs320_col _ _).trans hk)
  have er : dot_S320x1024_S1280x1024_S320x1280_1_1_0_0_n_n.rhsIdx (ix2 p q) ((contrEquiv1 dot_S320x1024_S1280x1024_S320x1280_1_1_0_0_n_n 1024 rfl rfl).symm k) = ix2 q k := funext fun a => Fin.ext (by
    match a with
    | ⟨0, _⟩ => exact rhs320_row _ _
    | ⟨1, _⟩ => exact (rhs320_col _ _).trans hk)
  rw [el, er]

/-- The bias row, turned into a column and laid along every column of the block, at entry `(p, q)`: `b[0,p]`. -/
theorem biasCol320_apply (b : Vec Ideal S1x320 .f32) (p : Fin 320) (q : Fin 1280) :
    broadcastTo S320x1280 (k0_pay2 (F := Ideal) b) broadcasts_S320x1_S320x1280 (ix2 p q) = b (ix2 0 p) := by
  rw [broadcastTo_apply (k0_pay2 (F := Ideal) b) broadcasts_S320x1_S320x1280 (ix2 p q) (ix2 p (0 : Fin 1)) (fun a => match a with
    | ⟨0, _⟩ => by show p.val = if (320 : Nat) = 1 then 0 else p.val; rw [if_neg (by decide)]
    | ⟨1, _⟩ => by show 0 = if (1 : Nat) = 1 then 0 else q.val; rw [if_pos rfl])]
  unfold k0_pay2
  rw [transpose_apply [1, 0] (shapeCast S1x320 b shapeCasts_S1x320_S1x320) transposes_S1x320_p1_0_S320x1 (ix2 p (0 : Fin 1)) (ix2 (0 : Fin 1) p) (fun a => match a with
    | ⟨0, _⟩ => rfl
    | ⟨1, _⟩ => rfl), shapeCast_self]

/-- THE PAYLOAD AT AN ENTRY: the block the body stores is, at `(p, q)`, `(∑ k, W[p,k] · x[q,k]) + b[0,p]`. -/
theorem k0_pay4_apply (x0 : Vec Ideal S1280x1024 .f32) (v5 : Vec Ideal S1x320 .f32) (v13 : Vec Ideal S320x1024 .f32) (p : Fin 320) (q : Fin 1280) :
    k0_pay4 (F := Ideal) x0 v5 v13 (ix2 p q) = (∑ k : Fin 1024, v13 (ix2 p k) * x0 (ix2 q k)) + v5 (ix2 0 p) := by
  unfold k0_pay4
  rw [addf_apply, matmul320_apply, biasCol320_apply]

/-- The second block of rows goes through the same arithmetic. -/
theorem k0_pay6_eq (x1 : Vec Ideal S1280x1024 .f32) (v5 : Vec Ideal S1x320 .f32) (v23 : Vec Ideal S320x1024 .f32) :
    k0_pay6 (F := Ideal) x1 v5 v23 = k0_pay4 (F := Ideal) x1 v5 v23 := rfl

theorem k0_pay6_apply (x1 : Vec Ideal S1280x1024 .f32) (v5 : Vec Ideal S1x320 .f32) (v23 : Vec Ideal S320x1024 .f32) (p : Fin 320) (q : Fin 1280) :
    k0_pay6 (F := Ideal) x1 v5 v23 (ix2 p q) = (∑ k : Fin 1024, v23 (ix2 p k) * x1 (ix2 q k)) + v5 (ix2 0 p) :=
  k0_pay4_apply x1 v5 v23 p q

end Cert.Bridge.Payload

end
-- ==== Proof.BlockValue.lean ====
/-
  From the blocks the body leaves to the blocks of the specification, over the extended reals.

  A grid step `t` (eight of them) handles 2560 rows of `x`: the stripe of 1280 rows number `2t` and the stripe number
  `2t + 1`. It leaves, in each result block `[A, 2560]`, columns `0‥1279` computed from the first stripe and columns
  `1280‥2559` from the second; column `j` of the block is column `t · 2560 + j` of the `[A, 20000]` result. The last step's
  second stripe and result blocks overhang the arrays (20000 = 7 · 2560 + 2080 = 15 · 1280 + 800): a fetched stripe holds
  the array's rows where they exist and anything past them, and only the result columns below 20000 are written back.
  A result column `n < 20000` is computed from row `n` of `x`, which exists; so on the part written back the block is
  the block of `linTrow W x b` — entry `(c, n) ↦ (∑ k, W[c,k] · x[n,k]) + b[0,c]` — whatever lay past the rows' end.
  The blocks written back cover the result arrays: column `n` is in the block of step `n / 2560`.
-/
import proofs.«173869_g6244882448852_cont_9to1_m_469_22_alg».proof.Proof.IdealBody
import proofs.«173869_g6244882448852_cont_9to1_m_469_22_alg».proof.Proof.PayloadIdeal
import proofs.«173869_g6244882448852_cont_9to1_m_469_22_alg».proof.Proof.Spec
import proofs.«173869_g6244882448852_cont_9to1_m_469_22_alg».proof.Proof.Gen.KernelIdeal.Launch
import proofs.«173869_g6244882448852_cont_9to1_m_469_22_alg».proof.Proof.Gen.KernelIdeal.Points
import Idealize.ShloMosaic.Lib.Pipeline.Value
import Idealize.ShloMosaic.Lib.ValueIdx
import Idealize.ShloMosaic.Lib.ValueLayout

noncomputable section

open scoped BigOperators

namespace Cert.Spec

open Idealize.ShloMosaic Idealize.ShloMosaic.ValueIdx

variable {A : Nat}

/-- The layer with the output feature first and the bias given as a row `[1, A]`: entry `(c, n)` is
    `(∑ k, W[c,k] · x[n,k]) + b[0,c]`. -/
def linTrow (W : (⟨2, ![A, 1024]⟩ : Shape).Idx → EReal) (x : (⟨2, ![20000, 1024]⟩ : Shape).Idx → EReal)
    (b : (⟨2, ![1, A]⟩ : Shape).Idx → EReal) : (⟨2, ![A, 20000]⟩ : Shape).Idx → EReal :=
  fun i => (∑ k : Fin 1024, W (ix2 (i 0 : Fin A) k) * x (ix2 (i 1 : Fin 20000) k)) + b (ix2 (0 : Fin 1) (i 0 : Fin A))

/-- With the bias vector laid out as a row it is `linT`. -/
theorem linTrow_shapeCast (W : (⟨2, ![A, 1024]⟩ : Shape).Idx → EReal) (x : (⟨2, ![20000, 1024]⟩ : Shape).Idx → EReal)
    (b : (⟨1, ![A]⟩ : Shape).Idx → EReal) (h : (⟨1, ![A]⟩ : Shape).ShapeCasts ⟨2, ![1, A]⟩) :
    linTrow W x (shapeCast ⟨2, ![1, A]⟩ b h) = linT W x b := by
  funext i
  show _ + shapeCast ⟨2, ![1, A]⟩ b h (ix2 (0 : Fin 1) (i 0 : Fin A)) = _ + b (ix1 (i 0 : Fin A))
  exact congrArg _ (shapeCast_a_1a_apply b h (0 : Fin 1) (i 0 : Fin A))

end Cert.Spec

namespace Cert.Bridge.Block

open Cert.KernelIdeal Cert.KernelIdeal.Gen Cert.KernelIdeal.Hand Cert.Spec Cert.Bridge.Payload
open Idealize.ShloMosaic Idealize.ShloMosaic.TcCoe Idealize.ShloMosaic.ValueIdx
open Idealize.SL Idealize.SL.Sem
open Idealize.ShloMosaic.Pipeline (Dat Cfg Window Clip)

/-- The zero offsets, however spelt. -/
theorem off_zero : (![0, 0] : Fin 2 → Nat) = fun _ => 0 := funext fun a => by fin_cases a <;> rfl

/-! ## A result block `[81, 2560]` at an entry -/

/-- A column of the left half comes from the first stripe of rows. -/
theorem outC_apply_lt (x0 x1 : Vec Ideal S1280x1024 .f32) (w : Vec Ideal S81x1024 .f32) (b : Vec Ideal S1x81 .f32)
    (p : Fin 81) (q : Fin 2560) (h : q.val < 1280) :
    outC (F := Ideal) x0 x1 w b (ix2 p q)
      = (∑ k : Fin 1024, w (ix2 p k) * x0 (ix2 (⟨q.val, h⟩ : Fin 1280) k)) + b (ix2 (0 : Fin 1) p) := by
  have hnot : (ix2 p q : S81x2560.Idx) ∉ (rCr).set := by
    rw [Rect.mem_set_unit]
    intro h'
    have h1 : 1280 ≤ q.val := (h' 1).1
    omega
  have hy : (rCl).emb (ix2 p (⟨q.val, h⟩ : Fin 1280)) = (ix2 p q : S81x2560.Idx) := funext fun a => Fin.ext (by
    match a with
    | ⟨0, _⟩ => show 0 + 1 * p.val = p.val; omega
    | ⟨1, _⟩ => show 0 + 1 * q.val = q.val; omega)
  have h1 := View.canon_cons_emb (Val := Elt Ideal) (e := .f32) rCl (k0_pay3 (F := Ideal) (View.ld x0 rX) (View.ld b rBc) (View.ld w rWc)) [] (ix2 p (⟨q.val, h⟩ : Fin 1280))
  rw [hy] at h1
  have h2 := View.canon_cons_of_not_mem (Val := Elt Ideal) (⟨rCr, (k0_pay5 (F := Ideal) (View.ld x1 rX) (View.ld b rBc) (View.ld w rWc))⟩ : View.Piece (Elt Ideal) S81x2560 .f32) ([⟨rCl, (k0_pay3 (F := Ideal) (View.ld x0 rX) (View.ld b rBc) (View.ld w rWc))⟩] : List (View.Piece (Elt Ideal) S81x2560 .f32)) hnot
  have h3 : (k0_pay3 (F := Ideal) (View.ld x0 rX) (View.ld b rBc) (View.ld w rWc)) (ix2 p (⟨q.val, h⟩ : Fin 1280)) = k0_pay3 (F := Ideal) x0 b w (ix2 p (⟨q.val, h⟩ : Fin 1280)) := by
    rw [View.ld_unit_zero (S := S1280x1024) off_zero, View.ld_unit_zero (S := S1x81) off_zero, View.ld_unit_zero (S := S81x1024) off_zero]
  exact (h2.trans (h1.trans h3)).trans (k0_pay3_apply x0 b w p ⟨q.val, h⟩)

/-- A column of the right half comes from the second stripe of rows. -/
theorem outC_apply_ge (x0 x1 : Vec Ideal S1280x1024 .f32) (w : Vec Ideal S81x1024 .f32) (b : Vec Ideal S1x81 .f32)
    (p : Fin 81) (q : Fin 2560) (h : 1280 ≤ q.val) :
    outC (F := Ideal) x0 x1 w b (ix2 p q)
      = (∑ k : Fin 1024, w (ix2 p k) * x1 (ix2 (⟨q.val - 1280, by have := q.isLt; omega⟩ : Fin 1280) k)) + b (ix2 (0 : Fin 1) p) := by
  have hq : q.val - 1280 < 1280 := by have := q.isLt; omega
  have hy : (rCr).emb (ix2 p (⟨q.val - 1280, hq⟩ : Fin 1280)) = (ix2 p q : S81x2560.Idx) := funext fun a => Fin.ext (by
    match a with
    | ⟨0, _⟩ => show 0 + 1 * p.val = p.val; omega
    | ⟨1, _⟩ => show 1280 + 1 * (q.val - 1280) = q.val; omega)
  have h1 := View.canon_cons_emb (Val := Elt Ideal) (e := .f32) rCr (k0_pay5 (F := Ideal) (View.ld x1 rX) (View.ld b rBc) (View.ld w rWc)) ([⟨rCl, (k0_pay3 (F := Ideal) (View.ld x0 rX) (View.ld b rBc) (View.ld w rWc))⟩] : List (View.Piece (Elt Ideal) S81x2560 .f32)) (ix2 p (⟨q.val - 1280, hq⟩ : Fin 1280))
  rw [hy] at h1
  have h3 : (k0_pay5 (F := Ideal) (View.ld x1 rX) (View.ld b rBc) (View.ld w rWc)) (ix2 p (⟨q.val - 1280, hq⟩ : Fin 1280)) = k0_pay5 (F := Ideal) x1 b w (ix2 p (⟨q.val - 1280, hq⟩ : Fin 1280)) := by
    rw [View.ld_unit_zero (S := S1280x1024) off_zero, View.ld_unit_zero (S := S1x81) off_zero, View.ld_unit_zero (S := S81x1024) off_zero]
  exact (h1.trans h3).trans (k0_pay5_apply x1 b w p ⟨q.val - 1280, hq⟩)

/-- THE BLOCK AGAINST THE SPECIFICATION, with no window in sight: if the first stripe holds rows `2T · 1280 + r` of `X`
    and the second rows `(2T + 1) · 1280 + r`, wherever those rows exist, then the block at `(p, q)` is `linTrow` at
    `(p, n)` for the column `n = T · 2560 + q` — that column existing, the row it needs exists. -/
theorem outC_eq_linTrow (X : S20000x1024.Idx → Elt Ideal .f32) (W : Vec Ideal S81x1024 .f32) (Brow : Vec Ideal S1x81 .f32)
    (x0 x1 : Vec Ideal S1280x1024 .f32) (T : Nat) (p : Fin 81) (q : Fin 2560) (n : Fin 20000) (hn : n.val = T * 2560 + q.val)
    (hx0 : ∀ (r : Fin 1280) (k : Fin 1024) (h : 2 * T * 1280 + r.val < 20000), x0 (ix2 r k) = X (ix2 (⟨2 * T * 1280 + r.val, h⟩ : Fin 20000) k))
    (hx1 : ∀ (r : Fin 1280) (k : Fin 1024) (h : (2 * T + 1) * 1280 + r.val < 20000), x1 (ix2 r k) = X (ix2 (⟨(2 * T + 1) * 1280 + r.val, h⟩ : Fin 20000) k)) :
    outC (F := Ideal) x0 x1 W Brow (ix2 p q) = linTrow (A := 81) W X Brow (ix2 p n) := by
  have hnlt : n.val < 20000 := n.isLt
  show _ = (∑ k : Fin 1024, W (ix2 p k) * X (ix2 n k)) + Brow (ix2 (0 : Fin 1) p)
  by_cases h : q.val < 1280
  · rw [outC_apply_lt x0 x1 W Brow p q h]
    refine congrArg (· + Brow (ix2 (0 : Fin 1) p)) (Finset.sum_congr rfl fun k _ => ?_)
    have hr : 2 * T * 1280 + q.val < 20000 := by omega
    have e1 : (⟨2 * T * 1280 + q.val, hr⟩ : Fin 20000) = n := Fin.ext (by show 2 * T * 1280 + q.val = n.val; omega)
    rw [hx0 ⟨q.val, h⟩ k hr, e1]
  · have h' : 1280 ≤ q.val := Nat.le_of_not_lt h
    have hq : q.val - 1280 < 1280 := by have := q.isLt; omega
    rw [outC_apply_ge x0 x1 W Brow p q h']
    refine congrArg (· + Brow (ix2 (0 : Fin 1) p)) (Finset.sum_congr rfl fun k _ => ?_)
    have hr : (2 * T + 1) * 1280 + (q.val - 1280) < 20000 := by omega
    have e1 : (⟨(2 * T + 1) * 1280 + (q.val - 1280), hr⟩ : Fin 20000) = n := Fin.ext (by show (2 * T + 1) * 1280 + (q.val - 1280) = n.val; omega)
    rw [hx1 ⟨q.val - 1280, hq⟩ k hr, e1]

/-! ## A result block `[320, 2560]` at an entry -/

/-- A column of the left half comes from the first stripe of rows. -/
theorem outD_apply_lt (x0 x1 : Vec Ideal S1280x1024 .f32) (w : Vec Ideal S320x1024 .f32) (b : Vec Ideal S1x320 .f32)
    (p : Fin 320) (q : Fin 2560) (h : q.val < 1280) :
    outD (F := Ideal) x0 x1 w b (ix2 p q)
      = (∑ k : Fin 1024, w (ix2 p k) * x0 (ix2 (⟨q.val, h⟩ : Fin 1280) k)) + b (ix2 (0 : Fin 1) p) := by
  have hnot : (ix2 p q : S320x2560.Idx) ∉ (rDr).set := by
    rw [Rect.mem_set_unit]
    intro h'
    have h1 : 1280 ≤ q.val := (h' 1).1
    omega
  have hy : (rDl).emb (ix2 p (⟨q.val, h⟩ : Fin 1280)) = (ix2 p q : S320x2560.Idx) := funext fun a => Fin.ext (by
    match a with
    | ⟨0, _⟩ => show 0 + 1 * p.val = p.val; omega
    | ⟨1, _⟩ => show 0 + 1 * q.val = q.val; omega)
  have h1 := View.canon_cons_emb (Val := Elt Ideal) (e := .f32) rDl (k0_pay4 (F := Ideal) (View.ld x0 rX) (View.ld b rBb) (View.ld w rWb)) [] (ix2 p (⟨q.val, h⟩ : Fin 1280))
  rw [hy] at h1
  have h2 := View.canon_cons_of_not_mem (Val := Elt Ideal) (⟨rDr, (k0_pay6 (F := Ideal) (View.ld x1 rX) (View.ld b rBb) (View.ld w rWb))⟩ : View.Piece (Elt Ideal) S320x2560 .f32) ([⟨rDl, (k0_pay4 (F := Ideal) (View.ld x0 rX) (View.ld b rBb) (View.ld w rWb))⟩] : List (View.Piece (Elt Ideal) S320x2560 .f32)) hnot
  have h3 : (k0_pay4 (F := Ideal) (View.ld x0 rX) (View.ld b rBb) (View.ld w rWb)) (ix2 p (⟨q.val, h⟩ : Fin 1280)) = k0_pay4 (F := Ideal) x0 b w (ix2 p (⟨q.val, h⟩ : Fin 1280)) := by
    rw [View.ld_unit_zero (S := S1280x1024) off_zero, View.ld_unit_zero (S := S1x320) off_zero, View.ld_unit_zero (S := S320x1024) off_zero]
  exact (h2.trans (h1.trans h3)).trans (k0_pay4_apply x0 b w p ⟨q.val, h⟩)

/-- A column of the right half comes from the second stripe of rows. -/
theorem outD_apply_ge (x0 x1 : Vec Ideal S1280x1024 .f32) (w : Vec Ideal S320x1024 .f32) (b : Vec Ideal S1x320 .f32)
    (p : Fin 320) (q : Fin 2560) (h : 1280 ≤ q.val) :
    outD (F := Ideal) x0 x1 w b (ix2 p q)
      = (∑ k : Fin 1024, w (ix2 p k) * x1 (ix2 (⟨q.val - 1280, by have := q.isLt; omega⟩ : Fin 1280) k)) + b (ix2 (0 : Fin 1) p) := by
  have hq : q.val - 1280 < 1280 := by have := q.isLt; omega
  have hy : (rDr).emb (ix2 p (⟨q.val - 1280, hq⟩ : Fin 1280)) = (ix2 p q : S320x2560.Idx) := funext fun a => Fin.ext (by
    match a with
    | ⟨0, _⟩ => show 0 + 1 * p.val = p.val; omega
    | ⟨1, _⟩ => show 1280 + 1 * (q.val - 1280) = q.val; omega)
  have h1 := View.canon_cons_emb (Val := Elt Ideal) (e := .f32) rDr (k0_pay6 (F := Ideal) (View.ld x1 rX) (View.ld b rBb) (View.ld w rWb)) ([⟨rDl, (k0_pay4 (F := Ideal) (View.ld x0 rX) (View.ld b rBb) (View.ld w rWb))⟩] : List (View.Piece (Elt Ideal) S320x2560 .f32)) (ix2 p (⟨q.val - 1280, hq⟩ : Fin 1280))
  rw [hy] at h1
  have h3 : (k0_pay6 (F := Ideal) (View.ld x1 rX) (View.ld b rBb) (View.ld w rWb)) (ix2 p (⟨q.val - 1280, hq⟩ : Fin 1280)) = k0_pay6 (F := Ideal) x1 b w (ix2 p (⟨q.val - 1280, hq⟩ : Fin 1280)) := by
    rw [View.ld_unit_zero (S := S1280x1024) off_zero, View.ld_unit_zero (S := S1x320) off_zero, View.ld_unit_zero (S := S320x1024) off_zero]
  exact (h1.trans h3).trans (k0_pay6_apply x1 b w p ⟨q.val - 1280, hq⟩)

/-- THE BLOCK AGAINST THE SPECIFICATION, with no window in sight: if the first stripe holds rows `2T · 1280 + r` of `X`
    and the second rows `(2T + 1) · 1280 + r`, wherever those rows exist, then the block at `(p, q)` is `linTrow` at
    `(p, n)` for the column `n = T · 2560 + q` — that column existing, the row it needs exists. -/
theorem outD_eq_linTrow (X : S20000x1024.Idx → Elt Ideal .f32) (W : Vec Ideal S320x1024 .f32) (Brow : Vec Ideal S1x320 .f32)
    (x0 x1 : Vec Ideal S1280x1024 .f32) (T : Nat) (p : Fin 320) (q : Fin 2560) (n : Fin 20000) (hn : n.val = T * 2560 + q.val)
    (hx0 : ∀ (r : Fin 1280) (k : Fin 1024) (h : 2 * T * 1280 + r.val < 20000), x0 (ix2 r k) = X (ix2 (⟨2 * T * 1280 + r.val, h⟩ : Fin 20000) k))
    (hx1 : ∀ (r : Fin 1280) (k : Fin 1024) (h : (2 * T + 1) * 1280 + r.val < 20000), x1 (ix2 r k) = X (ix2 (⟨(2 * T + 1) * 1280 + r.val, h⟩ : Fin 20000) k)) :
    outD (F := Ideal) x0 x1 W Brow (ix2 p q) = linTrow (A := 320) W X Brow (ix2 p n) := by
  have hnlt : n.val < 20000 := n.isLt
  show _ = (∑ k : Fin 1024, W (ix2 p k) * X (ix2 n k)) + Brow (ix2 (0 : Fin 1) p)
  by_cases h : q.val < 1280
  · rw [outD_apply_lt x0 x1 W Brow p q h]
    refine congrArg (· + Brow (ix2 (0 : Fin 1) p)) (Finset.sum_congr rfl fun k _ => ?_)
    have hr : 2 * T * 1280 + q.val < 20000 := by omega
    have e1 : (⟨2 * T * 1280 + q.val, hr⟩ : Fin 20000) = n := Fin.ext (by show 2 * T * 1280 + q.val = n.val; omega)
    rw [hx0 ⟨q.val, h⟩ k hr, e1]
  · have h' : 1280 ≤ q.val := Nat.le_of_not_lt h
    have hq : q.val - 1280 < 1280 := by have := q.isLt; omega
    rw [outD_apply_ge x0 x1 W Brow p q h']
    refine congrArg (· + Brow (ix2 (0 : Fin 1) p)) (Finset.sum_congr rfl fun k _ => ?_)
    have hr : (2 * T + 1) * 1280 + (q.val - 1280) < 20000 := by omega
    have e1 : (⟨(2 * T + 1) * 1280 + (q.val - 1280), hr⟩ : Fin 20000) = n := Fin.ext (by show (2 * T + 1) * 1280 + (q.val - 1280) = n.val; omega)
    rw [hx1 ⟨q.val - 1280, hq⟩ k hr, e1]

/-! ## The grid's index maps, and what a cut transfer moves -/

/-- The printed index maps, decided over the eight grid steps: step `t` reads the stripes `2t` and `2t + 1` of rows
    and writes the result blocks number `t` along the columns. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- A coordinate of a block is among those a cut transfer moves iff it lies inside the array. -/
theorem lt_xsize_iff {σ : RefSig} {G : Pipeline.Grid} (w : Pipeline.Window σ G) (i : G.Coords) (a : Fin w.shape.rank) {n : Nat}
    (hn : n < w.size a) : n < w.xsize i a ↔ w.indexMap i a * w.size a + n < w.shape.size a := by
  have hok := w.hclip i a
  show n < (w.clip i a).extent (w.size a) ↔ _
  generalize w.clip i a = c at hok
  cases c with
  | none =>
    have h1 : (w.indexMap i a + 1) * w.size a ≤ w.shape.size a := hok
    rw [Nat.add_mul, Nat.one_mul] at h1
    show n < w.size a ↔ _
    constructor <;> intro <;> omega
  | some m =>
    obtain ⟨h0, h1, h2⟩ := hok
    show n < m ↔ _
    omega

/-- The same at a grid step, the block index spelt as the step's. -/
theorem lt_xsize_iff_at {σ : RefSig} {G : Pipeline.Grid} (w : Pipeline.Window σ G) (t : Fin G.N) (a : Fin w.shape.rank) {n : Nat}
    (hn : n < w.size a) : n < w.xsize (G.coords t) a ↔ w.index t a * w.size a + n < w.shape.size a :=
  lt_xsize_iff w (G.coords t) a hn

/-! ## The first stripe of rows a grid step fetches -/

/-- A row of the stripe that exists in the array is among those the fetch moves. -/
theorem stripe0_row_moved (t : Fin cfg0.N) (r : Fin 1280) (hr : win0_0.index t (0 : Fin 2) * 1280 + r.val < 20000) :
    r.val < win0_0.xsize (grid0.coords t) (0 : Fin 2) :=
  (lt_xsize_iff_at win0_0 t (0 : Fin 2) (n := r.val) r.isLt).mpr hr

/-- Every column is. -/
theorem stripe0_col_moved (t : Fin cfg0.N) (k : Fin 1024) : k.val < win0_0.xsize (grid0.coords t) (1 : Fin 2) :=
  (lt_xsize_iff_at win0_0 t (1 : Fin 2) (n := k.val) k.isLt).mpr (by
    show win0_0.index t (1 : Fin 2) * 1024 + k.val < 1024
    rw [(idx_facts t).2.1]; have := k.isLt; omega)

/-- The entry `(r, k)` of the stripe, as an entry of the part moved. -/
theorem stripe0_xinj (t : Fin cfg0.N) (r : Fin 1280) (k : Fin 1024) (h0 : r.val < win0_0.xsize (grid0.coords t) (0 : Fin 2))
    (h1 : k.val < win0_0.xsize (grid0.coords t) (1 : Fin 2)) :
    win0_0.xinj (grid0.coords t) (fun a => match a with | ⟨0, _⟩ => ⟨r.val, h0⟩ | ⟨1, _⟩ => ⟨k.val, h1⟩ : (win0_0.xblock (grid0.coords t)).Idx) = (ix2 r k : S1280x1024.Idx) :=
  funext fun a => match a with
    | ⟨0, _⟩ => rfl
    | ⟨1, _⟩ => rfl

/-- Where that entry sits in the array: row `index · 1280 + r`, column `k`. -/
theorem stripe0_emb (t : Fin cfg0.N) (r : Fin 1280) (k : Fin 1024) (h0 : r.val < win0_0.xsize (grid0.coords t) (0 : Fin 2))
    (h1 : k.val < win0_0.xsize (grid0.coords t) (1 : Fin 2)) (hr : win0_0.index t (0 : Fin 2) * 1280 + r.val < 20000) :
    (win0_0.blk t).view.emb (fun a => match a with | ⟨0, _⟩ => ⟨r.val, h0⟩ | ⟨1, _⟩ => ⟨k.val, h1⟩ : (win0_0.xblock (grid0.coords t)).Idx)
      = (ix2 (⟨win0_0.index t (0 : Fin 2) * 1280 + r.val, hr⟩ : Fin 20000) k : S20000x1024.Idx) := by
  have hcol : win0_0.index t (1 : Fin 2) = 0 := (idx_facts t).2.1
  refine funext fun a => Fin.ext ?_
  match a with
  | ⟨0, _⟩ => show win0_0.index t (0 : Fin 2) * 1280 + 1 * r.val = win0_0.index t (0 : Fin 2) * 1280 + r.val; omega
  | ⟨1, _⟩ => show win0_0.index t (1 : Fin 2) * 1024 + 1 * k.val = k.val; rw [hcol]; omega

/-- The fetched stripe at an entry of the part moved is the array there. -/
theorem stripe0_fill (t : Fin cfg0.N) (d : S1280x1024.Idx → Elt Ideal .f32) (X : S20000x1024.Idx → Elt Ideal .f32)
    (r : Fin 1280) (k : Fin 1024) (h0 : r.val < win0_0.xsize (grid0.coords t) (0 : Fin 2))
    (h1 : k.val < win0_0.xsize (grid0.coords t) (1 : Fin 2)) :
    win0_0.fill (grid0.coords t) d ((win0_0.blk t).view.read (Elt Ideal) X) (win0_0.xinj (grid0.coords t) (fun a => match a with | ⟨0, _⟩ => ⟨r.val, h0⟩ | ⟨1, _⟩ => ⟨k.val, h1⟩ : (win0_0.xblock (grid0.coords t)).Idx))
      = X ((win0_0.blk t).view.emb (fun a => match a with | ⟨0, _⟩ => ⟨r.val, h0⟩ | ⟨1, _⟩ => ⟨k.val, h1⟩ : (win0_0.xblock (grid0.coords t)).Idx)) :=
  win0_0.fill_xinj (grid0.coords t) d ((win0_0.blk t).view.read (Elt Ideal) X) (fun a => match a with | ⟨0, _⟩ => ⟨r.val, h0⟩ | ⟨1, _⟩ => ⟨k.val, h1⟩ : (win0_0.xblock (grid0.coords t)).Idx)

/-- A fetched stripe of rows, whatever filled it out past the array's end, holds the array's row wherever that row
    exists. -/
theorem stripe0_apply (t : Fin cfg0.N) (d : S1280x1024.Idx → Elt Ideal .f32) (X : S20000x1024.Idx → Elt Ideal .f32)
    (r : Fin 1280) (k : Fin 1024) (hr : win0_0.index t (0 : Fin 2) * 1280 + r.val < 20000) :
    win0_0.fill (grid0.coords t) d ((win0_0.blk t).view.read (Elt Ideal) X) (ix2 r k)
      = X (ix2 (⟨win0_0.index t (0 : Fin 2) * 1280 + r.val, hr⟩ : Fin 20000) k) :=
  (congrArg (win0_0.fill (grid0.coords t) d ((win0_0.blk t).view.read (Elt Ideal) X))
      (stripe0_xinj t r k (stripe0_row_moved t r hr) (stripe0_col_moved t k)).symm).trans
    ((stripe0_fill t d X r k (stripe0_row_moved t r hr) (stripe0_col_moved t k)).trans
      (congrArg X (stripe0_emb t r k (stripe0_row_moved t r hr) (stripe0_col_moved t k) hr)))

/-! ## The second stripe of rows a grid step fetches -/

/-- A row of the stripe that exists in the array is among those the fetch moves. -/
theorem stripe1_row_moved (t : Fin cfg0.N) (r : Fin 1280) (hr : win0_1.index t (0 : Fin 2) * 1280 + r.val < 20000) :
    r.val < win0_1.xsize (grid0.coords t) (0 : Fin 2) :=
  (lt_xsize_iff_at win0_1 t (0 : Fin 2) (n := r.val) r.isLt).mpr hr

/-- Every column is. -/
theorem stripe1_col_moved (t : Fin cfg0.N) (k : Fin 1024) : k.val < win0_1.xsize (grid0.coords t) (1 : Fin 2) :=
  (lt_xsize_iff_at win0_1 t (1 : Fin 2) (n := k.val) k.isLt).mpr (by
    show win0_1.index t (1 : Fin 2) * 1024 + k.val < 1024
    rw [(idx_facts t).2.2.2.1]; have := k.isLt; omega)

/-- The entry `(r, k)` of the stripe, as an entry of the part moved. -/
theorem stripe1_xinj (t : Fin cfg0.N) (r : Fin 1280) (k : Fin 1024) (h0 : r.val < win0_1.xsize (grid0.coords t) (0 : Fin 2))
    (h1 : k.val < win0_1.xsize (grid0.coords t) (1 : Fin 2)) :
    win0_1.xinj (grid0.coords t) (fun a => match a with | ⟨0, _⟩ => ⟨r.val, h0⟩ | ⟨1, _⟩ => ⟨k.val, h1⟩ : (win0_1.xblock (grid0.coords t)).Idx) = (ix2 r k : S1280x1024.Idx) :=
  funext fun a => match a with
    | ⟨0, _⟩ => rfl
    | ⟨1, _⟩ => rfl

/-- Where that entry sits in the array: row `index · 1280 + r`, column `k`. -/
theorem stripe1_emb (t : Fin cfg0.N) (r : Fin 1280) (k : Fin 1024) (h0 : r.val < win0_1.xsize (grid0.coords t) (0 : Fin 2))
    (h1 : k.val < win0_1.xsize (grid0.coords t) (1 : Fin 2)) (hr : win0_1.index t (0 : Fin 2) * 1280 + r.val < 20000) :
    (win0_1.blk t).view.emb (fun a => match a with | ⟨0, _⟩ => ⟨r.val, h0⟩ | ⟨1, _⟩ => ⟨k.val, h1⟩ : (win0_1.xblock (grid0.coords t)).Idx)
      = (ix2 (⟨win0_1.index t (0 : Fin 2) * 1280 + r.val, hr⟩ : Fin 20000) k : S20000x1024.Idx) := by
  have hcol : win0_1.index t (1 : Fin 2) = 0 := (idx_facts t).2.2.2.1
  refine funext fun a => Fin.ext ?_
  match a with
  | ⟨0, _⟩ => show win0_1.index t (0 : Fin 2) * 1280 + 1 * r.val = win0_1.index t (0 : Fin 2) * 1280 + r.val; omega
  | ⟨1, _⟩ => show win0_1.index t (1 : Fin 2) * 1024 + 1 * k.val = k.val; rw [hcol]; omega

/-- The fetched stripe at an entry of the part moved is the array there. -/
theorem stripe1_fill (t : Fin cfg0.N) (d : S1280x1024.Idx → Elt Ideal .f32) (X : S20000x1024.Idx → Elt Ideal .f32)
    (r : Fin 1280) (k : Fin 1024) (h0 : r.val < win0_1.xsize (grid0.coords t) (0 : Fin 2))
    (h1 : k.val < win0_1.xsize (grid0.coords t) (1 : Fin 2)) :
    win0_1.fill (grid0.coords t) d ((win0_1.blk t).view.read (Elt Ideal) X) (win0_1.xinj (grid0.coords t) (fun a => match a with | ⟨0, _⟩ => ⟨r.val, h0⟩ | ⟨1, _⟩ => ⟨k.val, h1⟩ : (win0_1.xblock (grid0.coords t)).Idx))
      = X ((win0_1.blk t).view.emb (fun a => match a with | ⟨0, _⟩ => ⟨r.val, h0⟩ | ⟨1, _⟩ => ⟨k.val, h1⟩ : (win0_1.xblock (grid0.coords t)).Idx)) :=
  win0_1.fill_xinj (grid0.coords t) d ((win0_1.blk t).view.read (Elt Ideal) X) (fun a => match a with | ⟨0, _⟩ => ⟨r.val, h0⟩ | ⟨1, _⟩ => ⟨k.val, h1⟩ : (win0_1.xblock (grid0.coords t)).Idx)

/-- A fetched stripe of rows, whatever filled it out past the array's end, holds the array's row wherever that row
    exists. -/
theorem stripe1_apply (t : Fin cfg0.N) (d : S1280x1024.Idx → Elt Ideal .f32) (X : S20000x1024.Idx → Elt Ideal .f32)
    (r : Fin 1280) (k : Fin 1024) (hr : win0_1.index t (0 : Fin 2) * 1280 + r.val < 20000) :
    win0_1.fill (grid0.coords t) d ((win0_1.blk t).view.read (Elt Ideal) X) (ix2 r k)
      = X (ix2 (⟨win0_1.index t (0 : Fin 2) * 1280 + r.val, hr⟩ : Fin 20000) k) :=
  (congrArg (win0_1.fill (grid0.coords t) d ((win0_1.blk t).view.read (Elt Ideal) X))
      (stripe1_xinj t r k (stripe1_row_moved t r hr) (stripe1_col_moved t k)).symm).trans
    ((stripe1_fill t d X r k (stripe1_row_moved t r hr) (stripe1_col_moved t k)).trans
      (congrArg X (stripe1_emb t r k (stripe1_row_moved t r hr) (stripe1_col_moved t k) hr)))

/-! ## The 81-feature result: what is written back, and that it covers -/

/-- WHAT STEP `t` WRITES BACK of the `[81, 2560]` block is block `t` of `linTrow W X b`, whatever lay past the rows' end
    in the two fetched stripes. -/
theorem cutC (X : S20000x1024.Idx → Elt Ideal .f32) (W : Vec Ideal S81x1024 .f32) (Brow : Vec Ideal S1x81 .f32) (t : Fin cfg0.N)
    (d0 d1 : S1280x1024.Idx → Elt Ideal .f32) :
    win0_6.cut (grid0.coords t) (outC (F := Ideal) (win0_0.fill (grid0.coords t) d0 ((win0_0.blk t).view.read (Elt Ideal) X))
        (win0_1.fill (grid0.coords t) d1 ((win0_1.blk t).view.read (Elt Ideal) X)) W Brow)
      = (win0_6.blk t).view.read (Elt Ideal) (linTrow (A := 81) W X Brow) := by
  obtain ⟨e00, -, e10, -, e0, e1, -, -⟩ := idx_facts t
  funext j
  have hj0 : (j 0).val < 81 := Nat.lt_of_lt_of_le (j 0).isLt (win0_6.xsize_le (grid0.coords t) (0 : Fin 2))
  have hj1 : (j 1).val < 2560 := Nat.lt_of_lt_of_le (j 1).isLt (win0_6.xsize_le (grid0.coords t) (1 : Fin 2))
  have hin : win0_6.indexMap (grid0.coords t) (1 : Fin 2) * 2560 + (j 1).val < 20000 :=
    (lt_xsize_iff win0_6 (grid0.coords t) (1 : Fin 2) (n := (j 1).val) hj1).mp (j 1).isLt
  have hn : t.val * 2560 + (j 1).val < 20000 := by
    have : win0_6.indexMap (grid0.coords t) (1 : Fin 2) = t.val := e1
    omega
  have hy : win0_6.xinj (grid0.coords t) j = (ix2 (⟨(j 0).val, hj0⟩ : Fin 81) (⟨(j 1).val, hj1⟩ : Fin 2560) : S81x2560.Idx) :=
    funext fun a => match a with
      | ⟨0, _⟩ => rfl
      | ⟨1, _⟩ => rfl
  have hi : (win0_6.blk t).view.emb j = (ix2 (⟨(j 0).val, hj0⟩ : Fin 81) (⟨t.val * 2560 + (j 1).val, hn⟩ : Fin 20000) : S81x20000.Idx) :=
    funext fun a => Fin.ext (by
      match a with
      | ⟨0, _⟩ => show win0_6.index t (0 : Fin 2) * 81 + 1 * (j 0).val = (j 0).val; rw [e0]; omega
      | ⟨1, _⟩ => show win0_6.index t (1 : Fin 2) * 2560 + 1 * (j 1).val = t.val * 2560 + (j 1).val; rw [e1]; omega)
  show outC (F := Ideal) _ _ W Brow (win0_6.xinj (grid0.coords t) j) = linTrow (A := 81) W X Brow ((win0_6.blk t).view.emb j)
  rw [hy, hi]
  refine outC_eq_linTrow X W Brow _ _ t.val _ _ _ rfl ?_ ?_
  · intro r k h
    have h' : win0_0.index t (0 : Fin 2) * 1280 + r.val < 20000 := by rw [e00]; exact h
    rw [stripe0_apply t d0 X r k h']
    exact congrArg (fun n => X (ix2 n k)) (Fin.ext (by show win0_0.index t (0 : Fin 2) * 1280 + r.val = 2 * t.val * 1280 + r.val; rw [e00]))
  · intro r k h
    have h' : win0_1.index t (0 : Fin 2) * 1280 + r.val < 20000 := by rw [e10]; exact h
    rw [stripe1_apply t d1 X r k h']
    exact congrArg (fun n => X (ix2 n k)) (Fin.ext (by show win0_1.index t (0 : Fin 2) * 1280 + r.val = (2 * t.val + 1) * 1280 + r.val; rw [e10]))

/-- An entry of the result array is in step `t`'s written-back block iff each coordinate is in the block's range. -/
theorem mem_blkC (t : Fin cfg0.N) (i : S81x20000.Idx) :
    i ∈ ((cfg0.win 6).blk t).view.set ↔ ∀ a : Fin 2, win0_6.index t a * S81x2560.size a ≤ (i a).val
      ∧ (i a).val < win0_6.index t a * S81x2560.size a + win0_6.xsize (grid0.coords t) a := by
  show i ∈ ((View.whole main_call0_v2_0).slice (win0_6.rect t)).set ↔ _
  rw [View.set_slice_whole, Rect.mem_set_unit]
  exact Iff.rfl

/-- THE WRITTEN-BACK BLOCKS COVER the `[81, 20000]` result: column `n` is in the block of step `n / 2560`. -/
theorem coverC (i : S81x20000.Idx) :
    ∃ t : Fin cfg0.N, (cfg0.win 6).flush t = true ∧ i ∈ ((cfg0.win 6).blk t).view.set := by
  have hi0 : (i 0).val < 81 := (i 0).isLt
  have hi1 : (i 1).val < 20000 := (i 1).isLt
  have hN : cfg0.N = 8 := N_0
  have ht8 : (i 1).val / 2560 < cfg0.N := by rw [hN]; omega
  obtain ⟨-, -, -, -, e0, e1, -, -⟩ := idx_facts ⟨(i 1).val / 2560, ht8⟩
  refine ⟨⟨(i 1).val / 2560, ht8⟩, flush0_6 _, (mem_blkC _ i).mpr fun a => ?_⟩
  match a with
  | ⟨0, _⟩ =>
    have hx := (lt_xsize_iff win0_6 (grid0.coords ⟨(i 1).val / 2560, ht8⟩) (0 : Fin 2) (n := (i 0).val) hi0).mpr (by
      show win0_6.index ⟨(i 1).val / 2560, ht8⟩ (0 : Fin 2) * 81 + (i 0).val < 81
      rw [e0]; omega)
    show win0_6.index ⟨(i 1).val / 2560, ht8⟩ (0 : Fin 2) * 81 ≤ (i 0).val
      ∧ (i 0).val < win0_6.index ⟨(i 1).val / 2560, ht8⟩ (0 : Fin 2) * 81 + win0_6.xsize (grid0.coords ⟨(i 1).val / 2560, ht8⟩) (0 : Fin 2)
    rw [e0]; omega
  | ⟨1, _⟩ =>
    have hlt : (i 1).val - (i 1).val / 2560 * 2560 < 2560 := by omega
    have hx := (lt_xsize_iff win0_6 (grid0.coords ⟨(i 1).val / 2560, ht8⟩) (1 : Fin 2) (n := (i 1).val - (i 1).val / 2560 * 2560) hlt).mpr (by
      show win0_6.index ⟨(i 1).val / 2560, ht8⟩ (1 : Fin 2) * 2560 + ((i 1).val - (i 1).val / 2560 * 2560) < 20000
      rw [e1]; show (i 1).val / 2560 * 2560 + ((i 1).val - (i 1).val / 2560 * 2560) < 20000; omega)
    show win0_6.index ⟨(i 1).val / 2560, ht8⟩ (1 : Fin 2) * 2560 ≤ (i 1).val
      ∧ (i 1).val < win0_6.index ⟨(i 1).val / 2560, ht8⟩ (1 : Fin 2) * 2560 + win0_6.xsize (grid0.coords ⟨(i 1).val / 2560, ht8⟩) (1 : Fin 2)
    rw [e1]; show (i 1).val / 2560 * 2560 ≤ (i 1).val ∧ (i 1).val < (i 1).val / 2560 * 2560 + win0_6.xsize (grid0.coords ⟨(i 1).val / 2560, ht8⟩) (1 : Fin 2)
    omega

/-! ## The 320-feature result: what is written back, and that it covers -/

/-- WHAT STEP `t` WRITES BACK of the `[320, 2560]` block is block `t` of `linTrow W X b`, whatever lay past the rows' end
    in the two fetched stripes. -/
theorem cutD (X : S20000x1024.Idx → Elt Ideal .f32) (W : Vec Ideal S320x1024 .f32) (Brow : Vec Ideal S1x320 .f32) (t : Fin cfg0.N)
    (d0 d1 : S1280x1024.Idx → Elt Ideal .f32) :
    win0_7.cut (grid0.coords t) (outD (F := Ideal) (win0_0.fill (grid0.coords t) d0 ((win0_0.blk t).view.read (Elt Ideal) X))
        (win0_1.fill (grid0.coords t) d1 ((win0_1.blk t).view.read (Elt Ideal) X)) W Brow)
      = (win0_7.blk t).view.read (Elt Ideal) (linTrow (A := 320) W X Brow) := by
  obtain ⟨e00, -, e10, -, -, -, e0, e1⟩ := idx_facts t
  funext j
  have hj0 : (j 0).val < 320 := Nat.lt_of_lt_of_le (j 0).isLt (win0_7.xsize_le (grid0.coords t) (0 : Fin 2))
  have hj1 : (j 1).val < 2560 := Nat.lt_of_lt_of_le (j 1).isLt (win0_7.xsize_le (grid0.coords t) (1 : Fin 2))
  have hin : win0_7.indexMap (grid0.coords t) (1 : Fin 2) * 2560 + (j 1).val < 20000 :=
    (lt_xsize_iff win0_7 (grid0.coords t) (1 : Fin 2) (n := (j 1).val) hj1).mp (j 1).isLt
  have hn : t.val * 2560 + (j 1).val < 20000 := by
    have : win0_7.indexMap (grid0.coords t) (1 : Fin 2) = t.val := e1
    omega
  have hy : win0_7.xinj (grid0.coords t) j = (ix2 (⟨(j 0).val, hj0⟩ : Fin 320) (⟨(j 1).val, hj1⟩ : Fin 2560) : S320x2560.Idx) :=
    funext fun a => match a with
      | ⟨0, _⟩ => rfl
      | ⟨1, _⟩ => rfl
  have hi : (win0_7.blk t).view.emb j = (ix2 (⟨(j 0).val, hj0⟩ : Fin 320) (⟨t.val * 2560 + (j 1).val, hn⟩ : Fin 20000) : S320x20000.Idx) :=
    funext fun a => Fin.ext (by
      match a with
      | ⟨0, _⟩ => show win0_7.index t (0 : Fin 2) * 320 + 1 * (j 0).val = (j 0).val; rw [e0]; omega
      | ⟨1, _⟩ => show win0_7.index t (1 : Fin 2) * 2560 + 1 * (j 1).val = t.val * 2560 + (j 1).val; rw [e1]; omega)
  show outD (F := Ideal) _ _ W Brow (win0_7.xinj (grid0.coords t) j) = linTrow (A := 320) W X Brow ((win0_7.blk t).view.emb j)
  rw [hy, hi]
  refine outD_eq_linTrow X W Brow _ _ t.val _ _ _ rfl ?_ ?_
  · intro r k h
    have h' : win0_0.index t (0 : Fin 2) * 1280 + r.val < 20000 := by rw [e00]; exact h
    rw [stripe0_apply t d0 X r k h']
    exact congrArg (fun n => X (ix2 n k)) (Fin.ext (by show win0_0.index t (0 : Fin 2) * 1280 + r.val = 2 * t.val * 1280 + r.val; rw [e00]))
  · intro r k h
    have h' : win0_1.index t (0 : Fin 2) * 1280 + r.val < 20000 := by rw [e10]; exact h
    rw [stripe1_apply t d1 X r k h']
    exact congrArg (fun n => X (ix2 n k)) (Fin.ext (by show win0_1.index t (0 : Fin 2) * 1280 + r.val = (2 * t.val + 1) * 1280 + r.val; rw [e10]))

/-- An entry of the result array is in step `t`'s written-back block iff each coordinate is in the block's range. -/
theorem mem_blkD (t : Fin cfg0.N) (i : S320x20000.Idx) :
    i ∈ ((cfg0.win 7).blk t).view.set ↔ ∀ a : Fin 2, win0_7.index t a * S320x2560.size a ≤ (i a).val
      ∧ (i a).val < win0_7.index t a * S320x2560.size a + win0_7.xsize (grid0.coords t) a := by
  show i ∈ ((View.whole main_call0_v2_1).slice (win0_7.rect t)).set ↔ _
  rw [View.set_slice_whole, Rect.mem_set_unit]
  exact Iff.rfl

/-- THE WRITTEN-BACK BLOCKS COVER the `[320, 20000]` result: column `n` is in the block of step `n / 2560`. -/
theorem coverD (i : S320x20000.Idx) :
    ∃ t : Fin cfg0.N, (cfg0.win 7).flush t = true ∧ i ∈ ((cfg0.win 7).blk t).view.set := by
  have hi0 : (i 0).val < 320 := (i 0).isLt
  have hi1 : (i 1).val < 20000 := (i 1).isLt
  have hN : cfg0.N = 8 := N_0
  have ht8 : (i 1).val / 2560 < cfg0.N := by rw [hN]; omega
  obtain ⟨-, -, -, -, -, -, e0, e1⟩ := idx_facts ⟨(i 1).val / 2560, ht8⟩
  refine ⟨⟨(i 1).val / 2560, ht8⟩, flush0_7 _, (mem_blkD _ i).mpr fun a => ?_⟩
  match a with
  | ⟨0, _⟩ =>
    have hx := (lt_xsize_iff win0_7 (grid0.coords ⟨(i 1).val / 2560, ht8⟩) (0 : Fin 2) (n := (i 0).val) hi0).mpr (by
      show win0_7.index ⟨(i 1).val / 2560, ht8⟩ (0 : Fin 2) * 320 + (i 0).val < 320
      rw [e0]; omega)
    show win0_7.index ⟨(i 1).val / 2560, ht8⟩ (0 : Fin 2) * 320 ≤ (i 0).val
      ∧ (i 0).val < win0_7.index ⟨(i 1).val / 2560, ht8⟩ (0 : Fin 2) * 320 + win0_7.xsize (grid0.coords ⟨(i 1).val / 2560, ht8⟩) (0 : Fin 2)
    rw [e0]; omega
  | ⟨1, _⟩ =>
    have hlt : (i 1).val - (i 1).val / 2560 * 2560 < 2560 := by omega
    have hx := (lt_xsize_iff win0_7 (grid0.coords ⟨(i 1).val / 2560, ht8⟩) (1 : Fin 2) (n := (i 1).val - (i 1).val / 2560 * 2560) hlt).mpr (by
      show win0_7.index ⟨(i 1).val / 2560, ht8⟩ (1 : Fin 2) * 2560 + ((i 1).val - (i 1).val / 2560 * 2560) < 20000
      rw [e1]; show (i 1).val / 2560 * 2560 + ((i 1).val - (i 1).val / 2560 * 2560) < 20000; omega)
    show win0_7.index ⟨(i 1).val / 2560, ht8⟩ (1 : Fin 2) * 2560 ≤ (i 1).val
      ∧ (i 1).val < win0_7.index ⟨(i 1).val / 2560, ht8⟩ (1 : Fin 2) * 2560 + win0_7.xsize (grid0.coords ⟨(i 1).val / 2560, ht8⟩) (1 : Fin 2)
    rw [e1]; show (i 1).val / 2560 * 2560 ≤ (i 1).val ∧ (i 1).val < (i 1).val / 2560 * 2560 + win0_7.xsize (grid0.coords ⟨(i 1).val / 2560, ht8⟩) (1 : Fin 2)
    omega

end Cert.Bridge.Block

end
-- ==== Proof.WholeBlocks.lean ====
/-
  The weights and the bias rows are not cut into blocks: each of those four operands is one block, the whole array, at
  every grid step (block index zero on both axes), so what a step reads of it is the array itself.
-/
import proofs.«173869_g6244882448852_cont_9to1_m_469_22_alg».proof.Proof.Gen.KernelIdeal.Launch
import proofs.«173869_g6244882448852_cont_9to1_m_469_22_alg».proof.Proof.Gen.KernelIdeal.Points

noncomputable section

namespace Cert.Bridge.Block

open Cert.KernelIdeal Cert.KernelIdeal.Gen
open Idealize.ShloMosaic Idealize.ShloMosaic.TcCoe
open Idealize.SL Idealize.SL.Sem

variable {F : FTy → Type} [FloatOps F]

/-- The four whole-array operands' index maps, decided over the eight grid steps: block index zero on both axes. -/
theorem whole_idx : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Window 2 is the whole `[81, 1024]` array at every grid step: its block read is the array. -/
theorem read_whole2 (t : Fin cfg0.N) (A : S81x1024.Idx → Elt F .f32) : (win0_2.blk t).view.read (Elt F) A = A := by
  obtain ⟨e0, e1⟩ := (whole_idx t).1
  funext j
  show A ((win0_2.blk t).view.emb j) = A j
  refine congrArg A (funext fun a => Fin.ext ?_)
  match a with
  | ⟨0, _⟩ => show win0_2.index t (0 : Fin 2) * 81 + 1 * (j 0).val = (j 0).val; rw [e0]; omega
  | ⟨1, _⟩ => show win0_2.index t (1 : Fin 2) * 1024 + 1 * (j 1).val = (j 1).val; rw [e1]; omega

/-- Window 3 is the whole `[1, 81]` array at every grid step: its block read is the array. -/
theorem read_whole3 (t : Fin cfg0.N) (A : S1x81.Idx → Elt F .f32) : (win0_3.blk t).view.read (Elt F) A = A := by
  obtain ⟨e0, e1⟩ := (whole_idx t).2.1
  funext j
  show A ((win0_3.blk t).view.emb j) = A j
  refine congrArg A (funext fun a => Fin.ext ?_)
  match a with
  | ⟨0, _⟩ => show win0_3.index t (0 : Fin 2) * 1 + 1 * (j 0).val = (j 0).val; rw [e0]; omega
  | ⟨1, _⟩ => show win0_3.index t (1 : Fin 2) * 81 + 1 * (j 1).val = (j 1).val; rw [e1]; omega

/-- Window 4 is the whole `[320, 1024]` array at every grid step: its block read is the array. -/
theorem read_whole4 (t : Fin cfg0.N) (A : S320x1024.Idx → Elt F .f32) : (win0_4.blk t).view.read (Elt F) A = A := by
  obtain ⟨e0, e1⟩ := (whole_idx t).2.2.1
  funext j
  show A ((win0_4.blk t).view.emb j) = A j
  refine congrArg A (funext fun a => Fin.ext ?_)
  match a with
  | ⟨0, _⟩ => show win0_4.index t (0 : Fin 2) * 320 + 1 * (j 0).val = (j 0).val; rw [e0]; omega
  | ⟨1, _⟩ => show win0_4.index t (1 : Fin 2) * 1024 + 1 * (j 1).val = (j 1).val; rw [e1]; omega

/-- Window 5 is the whole `[1, 320]` array at every grid step: its block read is the array. -/
theorem read_whole5 (t : Fin cfg0.N) (A : S1x320.Idx → Elt F .f32) : (win0_5.blk t).view.read (Elt F) A = A := by
  obtain ⟨e0, e1⟩ := (whole_idx t).2.2.2
  funext j
  show A ((win0_5.blk t).view.emb j) = A j
  refine congrArg A (funext fun a => Fin.ext ?_)
  match a with
  | ⟨0, _⟩ => show win0_5.index t (0 : Fin 2) * 1 + 1 * (j 0).val = (j 0).val; rw [e0]; omega
  | ⟨1, _⟩ => show win0_5.index t (1 : Fin 2) * 320 + 1 * (j 1).val = (j 1).val; rw [e1]; omega

end Cert.Bridge.Block

end
-- ==== Proof.RefValue.lean ====
/-
  The reference's two results are the layer `lin` of the specification, over the extended reals.

  The reference transposes the weights, contracts the rows of `x` with the columns of the transposed weights, and adds the
  bias repeated along the rows. Read at entry `(n, c)`: the product is `∑ k, x[n,k] · W[c,k]` (the transposed weights at
  `(k, c)` are the weights at `(c, k)`) and the repeated bias is `b[c]`. That is `lin W x b` entry by entry, with no
  condition on the values.
-/
import proofs.«173869_g6244882448852_cont_9to1_m_469_22_alg».proof.Proof.Spec
import proofs.«173869_g6244882448852_cont_9to1_m_469_22_alg».proof.Proof.Gen.ReferenceIdeal.Read

noncomputable section

open scoped BigOperators

namespace Cert.Bridge.Ref

open Cert.ReferenceIdeal Cert.ReferenceIdeal.Gen Cert.ReferenceIdeal.Read Cert.Spec
open Idealize.ShloMosaic Idealize.ShloMosaic.TcCoe Idealize.ShloMosaic.ValueIdx Idealize.SL.Sem Idealize.ShloMosaic.StableHlo

/-- The first result (81 output features) is `lin` of the weights, the rows and the bias. -/
theorem val_main_v4_eq_lin (x0 : (⟨S20000x1024, .f32⟩ : BufTy).Contents (Elt Ideal)) (x1 : (⟨S81x1024, .f32⟩ : BufTy).Contents (Elt Ideal))
    (x2 : (⟨S81, .f32⟩ : BufTy).Contents (Elt Ideal)) :
    val_main_v4 (F := Ideal) x0 x1 x2 = lin (A := 81) x1 x0 x2 := by
  funext i
  rw [val_main_v4_apply, val_main_v1_apply, val_main_v3_apply, val_main_v2_apply]
  simp only [val_main_v0_apply]
  have e0 : lidx_main_v1 i = fun k => ix2 (i 0 : Fin 20000) k := funext fun k => funext fun a => match a with
    | ⟨0, _⟩ => rfl
    | ⟨1, _⟩ => rfl
  have e1 : (fun k => idx_main_v0 (ridx_main_v1 i k)) = fun k => ix2 (i 1 : Fin 81) k := funext fun k => funext fun a => match a with
    | ⟨0, _⟩ => rfl
    | ⟨1, _⟩ => rfl
  have e2 : idx_main_v2 (idx_main_v3 i) = ix1 (i 1 : Fin 81) := funext fun a => match a with
    | ⟨0, _⟩ => rfl
  show (∑ k : Fin 1024, x0 (lidx_main_v1 i k) * x1 ((fun k => idx_main_v0 (ridx_main_v1 i k)) k)) + x2 (idx_main_v2 (idx_main_v3 i)) = _
  rw [e0, e1, e2]
  rfl

/-- The second result (320 output features) likewise. -/
theorem val_main_v9_eq_lin (x0 : (⟨S20000x1024, .f32⟩ : BufTy).Contents (Elt Ideal)) (x3 : (⟨S320x1024, .f32⟩ : BufTy).Contents (Elt Ideal))
    (x4 : (⟨S320, .f32⟩ : BufTy).Contents (Elt Ideal)) :
    val_main_v9 (F := Ideal) x0 x3 x4 = lin (A := 320) x3 x0 x4 := by
  funext i
  rw [val_main_v9_apply, val_main_v6_apply, val_main_v8_apply, val_main_v7_apply]
  simp only [val_main_v5_apply]
  have e0 : lidx_main_v6 i = fun k => ix2 (i 0 : Fin 20000) k := funext fun k => funext fun a => match a with
    | ⟨0, _⟩ => rfl
    | ⟨1, _⟩ => rfl
  have e1 : (fun k => idx_main_v5 (ridx_main_v6 i k)) = fun k => ix2 (i 1 : Fin 320) k := funext fun k => funext fun a => match a with
    | ⟨0, _⟩ => rfl
    | ⟨1, _⟩ => rfl
  have e2 : idx_main_v7 (idx_main_v8 i) = ix1 (i 1 : Fin 320) := funext fun a => match a with
    | ⟨0, _⟩ => rfl
  show (∑ k : Fin 1024, x0 (lidx_main_v6 i k) * x3 ((fun k => idx_main_v5 (ridx_main_v6 i k)) k)) + x4 (idx_main_v7 (idx_main_v8 i)) = _
  rw [e0, e1, e2]
  rfl

/-- THE REFERENCE'S RUN against the specification: every weakly fair execution of the reference terminates with its two
    results holding `lin` of the arguments' launch contents, and the five arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = lin (A := 81) (m ((c.tc : Thread nD τ).loc main_arg1)) (m ((c.tc : Thread nD τ).loc main_arg0)) (m ((c.tc : Thread nD τ).loc main_arg2))
      ∧ r.2.mem ((c.tc : Thread nD τ).loc main_v9) = lin (A := 320) (m ((c.tc : Thread nD τ).loc main_arg3)) (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans ((val_main_v4_eq _ _ _).trans (val_main_v4_eq_lin _ _ _)),
      (h c).2.1.trans ((val_main_v9_eq _ _ _).trans (val_main_v9_eq_lin _ _ _)),
      (h c).2.2⟩)
    (Cert.ReferenceIdeal.Value.run m ρ)

end Cert.Bridge.Ref

end
-- ==== Proof.lean ====
/-
  Two linear layers over the same activations, `scores = x · W_clsᵀ + b_cls` and `deltas = x · W_boxᵀ + b_box`, computed by
  one kernel that streams `x` once: at each of eight grid points it reads two stripes of 1280 rows of `x` (the one array
  handed to two windows), multiplies each weight matrix by both stripes, adds the bias as a column, and writes the TRANSPOSED
  result blocks (81 × 2560 and 320 × 2560); the host transposes the two results back. The reference multiplies `x` by the
  transposed weights on the host and adds the broadcast bias.

  At the ideal instance an entry of the kernel's transposed result is `(Σₖ W[c,k] · x[n,k]) + b[c]` and the reference's entry
  is `(Σₖ x[n,k] · W[c,k]) + b[c]`: equal by commutativity of the product on the extended reals alone, so the precondition is
  never opened. The last blocks overhang the arrays (20000 is no multiple of 1280 or 2560): a column of a result block that
  lies inside the array reads a row of `x` that lies inside its array too, whatever fills the staging buffers past the arrays'
  ends, and the write-back moves only the columns inside.

  The frames: both printed kernels run under the pipeline's launch rule for windows that may share an array, the array `x`
  split between its two windows by halves; at the word-level instance the two result windows are forgotten (nothing is said
  of what the body leaves in them), at the ideal instance they are named by the transposed specification.
-/
import proofs.«173869_g6244882448852_cont_9to1_m_469_22_alg».proof.Defs
import proofs.«173869_g6244882448852_cont_9to1_m_469_22_alg».proof.Proof.Gen.Kernel
import proofs.«173869_g6244882448852_cont_9to1_m_469_22_alg».proof.Proof.Gen.KernelIdeal
import proofs.«173869_g6244882448852_cont_9to1_m_469_22_alg».proof.Proof.Gen.ReferenceIdeal
import proofs.«173869_g6244882448852_cont_9to1_m_469_22_alg».proof.Proof.Gen.Pre_finite_inputs
import proofs.«173869_g6244882448852_cont_9to1_m_469_22_alg».proof.Proof.Gen.ReferenceIdeal.Read
import proofs.«173869_g6244882448852_cont_9to1_m_469_22_alg».proof.Proof.BitsLaunch
import proofs.«173869_g6244882448852_cont_9to1_m_469_22_alg».proof.Proof.IdealValue
import proofs.«173869_g6244882448852_cont_9to1_m_469_22_alg».proof.Proof.BlockValue
import proofs.«173869_g6244882448852_cont_9to1_m_469_22_alg».proof.Proof.WholeBlocks
import proofs.«173869_g6244882448852_cont_9to1_m_469_22_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The kernel's value at the ideal instance -/

section Value

open Cert.KernelIdeal Cert.KernelIdeal.Gen Cert.KernelIdeal.Hand

variable (m : (ℓ : Loc nD τ sig) → Buf (Elt Ideal) ℓ) (ρ : Dev nD → PrngReg)

/-- The transposed class scores, `(Σₖ W_cls[c,k] · x[n,k]) + b_cls[c]` at `(c, n)`: what the kernel's first result array is
    claimed to hold. -/
def scoresT (c : Dev nD) : Buf (Elt Ideal) ((c : Thread nD τ).loc main_call0_v2_0) :=
  Cert.Spec.linT (A := 81) (m ((c : Thread nD τ).loc main_arg1)) (m ((c : Thread nD τ).loc main_arg0)) (m ((c : Thread nD τ).loc main_arg2))
/-- The transposed box deltas, likewise. -/
def deltasT (c : Dev nD) : Buf (Elt Ideal) ((c : Thread nD τ).loc main_call0_v2_1) :=
  Cert.Spec.linT (A := 320) (m ((c : Thread nD τ).loc main_arg3)) (m ((c : Thread nD τ).loc main_arg0)) (m ((c : Thread nD τ).loc main_arg4))

/-- On the part of the class-score block inside the array, what the body computes at point `t` from the two stripes of
    `x` — whatever fills them out past the array's end — is the specification's block. -/
theorem blockC (c : Dev nD) (t : Fin cfg0.N) (d0 d1 : S1280x1024.Idx → Elt Ideal .f32) :
    win0_6.cut (grid0.coords t) (outC (xa m c t d0) (xb m c t d1) (iblk m c 2 t) (iblk m c 3 t))
      = (win0_6.blk t).view.read (Elt Ideal) (scoresT m c) := by
  have e0 : iblk m c 0 t = (win0_0.blk t).view.read (Elt Ideal) (m ((c : Thread nD τ).loc main_arg0)) :=
    congrArg ((win0_0.blk t).view.read (Elt Ideal)) (V_arg0 m c)
  have e1 : iblk m c 1 t = (win0_1.blk t).view.read (Elt Ideal) (m ((c : Thread nD τ).loc main_arg0)) :=
    congrArg ((win0_1.blk t).view.read (Elt Ideal)) (V_arg0 m c)
  have e2 : iblk m c 2 t = m ((c : Thread nD τ).loc main_arg1) := (Cert.Bridge.Block.read_whole2 t _).trans (V_arg1 m c)
  have e3 : iblk m c 3 t = shapeCast S1x81 (m ((c : Thread nD τ).loc main_arg2)) shapeCasts_S81_S1x81 :=
    (Cert.Bridge.Block.read_whole3 t _).trans (V_biasC m c)
  dsimp only [xa, xb]
  rw [e0, e1, e2, e3, Cert.Bridge.Block.cutC, Cert.Spec.linTrow_shapeCast]
  rfl
theorem blockD (c : Dev nD) (t : Fin cfg0.N) (d0 d1 : S1280x1024.Idx → Elt Ideal .f32) :
    win0_7.cut (grid0.coords t) (outD (xa m c t d0) (xb m c t d1) (iblk m c 4 t) (iblk m c 5 t))
      = (win0_7.blk t).view.read (Elt Ideal) (deltasT m c) := by
  have e0 : iblk m c 0 t = (win0_0.blk t).view.read (Elt Ideal) (m ((c : Thread nD τ).loc main_arg0)) :=
    congrArg ((win0_0.blk t).view.read (Elt Ideal)) (V_arg0 m c)
  have e1 : iblk m c 1 t = (win0_1.blk t).view.read (Elt Ideal) (m ((c : Thread nD τ).loc main_arg0)) :=
    congrArg ((win0_1.blk t).view.read (Elt Ideal)) (V_arg0 m c)
  have e4 : iblk m c 4 t = m ((c : Thread nD τ).loc main_arg3) := (Cert.Bridge.Block.read_whole4 t _).trans (V_arg3 m c)
  have e5 : iblk m c 5 t = shapeCast S1x320 (m ((c : Thread nD τ).loc main_arg4)) shapeCasts_S320_S1x320 :=
    (Cert.Bridge.Block.read_whole5 t _).trans (V_biasD m c)
  dsimp only [xa, xb]
  rw [e0, e1, e4, e5, Cert.Bridge.Block.cutD, Cert.Spec.linTrow_shapeCast]
  rfl

/-- The idealized kernel's run: its two results are `x · Wᵀ + b` entry by entry, its arguments unchanged. -/
theorem value_run :
    θ_run defs (onTc (τ := τ) (main (F := Ideal))) ⟨m, fun _ => 0, ρ⟩ (fun r => ∀ c : Dev nD,
      r.2.mem ((c.tc : Thread nD τ).loc main_v0_0)
          = Cert.Spec.lin (A := 81) (m ((c.tc : Thread nD τ).loc main_arg1)) (m ((c.tc : Thread nD τ).loc main_arg0)) (m ((c.tc : Thread nD τ).loc main_arg2))
      ∧ r.2.mem ((c.tc : Thread nD τ).loc main_v0_1)
          = Cert.Spec.lin (A := 320) (m ((c.tc : Thread nD τ).loc main_arg3)) (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
      obtain ⟨h0, h1, rest⟩ := h c
      exact ⟨h0.trans (Cert.Spec.transpose_linT _ _ _ _), h1.trans (Cert.Spec.transpose_linT _ _ _ _), rest⟩)
    (Cert.KernelIdeal.Hand.value_run m ρ (scoresT m) (deltasT m) (blockC m) (blockD m)
      (fun _ i => Cert.Bridge.Block.coverC i) (fun _ i => Cert.Bridge.Block.coverD i))

end Value

/-! ## The claims -/

/-- The word-level kernel runs and leaves its arguments unchanged. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both idealized programs end with `x · Wᵀ + b` in both results. -/
theorem algebraic : Cert.algebraic_KernelIdeal_ReferenceIdeal := by
  intro m ρ m' ρ' _ hagree
  refine ⟨_, _, value_run m ρ, ?_⟩
  refine (θ_run Cert.ReferenceIdeal.defs _ _).mono (fun r h c => ?_) (Cert.Bridge.Ref.ref_run m' ρ')
  obtain ⟨h4, h9, rest⟩ := h c
  obtain ⟨g0, g1, g2, g3, g4⟩ := hagree c
  rw [g0, g1, g2] at h4
  rw [g0, g3, g4] at h9
  exact ⟨h4, h9, rest⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
